-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x64 : Shape := ⟨2, ![1, 64]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S1x64 .f32) (main_arg9 : FVec F S1 .f32) (main_v33 : IVec S_ 1) : IVec S_ 1 :=
  let main_v34 : FVec F S1x64 .f32 := Host.absf main_arg8
  let main_cst_12 : FVec F S_ .f32 := constant S_ .f32 0x7F800000#32
  let main_v35 : FVec F S1x64 .f32 := broadcastInDim S1x64 ![] bcast_S_S1x64 main_cst_12
  let main_v36 : IVec S1x64 1 := cmpf .olt main_v34 main_v35
  let main_c_13 : IVec S_ 1 := constantI S_ 1 1#1
  let main_v37 : IVec S_ 1 := (fun x v => Host.reduce IntOp.andi x v reducesTo_S1x64_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg5 : FVec F S64x128 .f32) (main_arg6 : FVec F S64x128 .f32) (main_arg7 : FVec F S64 .f32) (main_arg8 : FVec F S1x64 .f32) (main_arg9 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S64x128 .f32 := Host.absf main_arg5
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S64x128 .f32 := Host.absf main_arg6
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x1600000 32) (main_arg2 : FVec F S128x128 .f32) (main_arg3 : FVec F S128x128 .f32) (main_arg4 : FVec F S128 .f32) (main_arg5 : FVec F S64x128 .f32) (main_arg6 : FVec F S64x128 .f32) (main_arg7 : FVec F S64 .f32) (main_arg8 : FVec F S1x64 .f32) (main_arg9 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x64 : Shape := ⟨2, ![1, 64]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S5000x128 : Shape := ⟨2, ![5000, 128]⟩
abbrev S128x64 : Shape := ⟨2, ![128, 64]⟩
abbrev S64x1 : Shape := ⟨2, ![64, 1]⟩
abbrev S1x1 : Shape := ⟨2, ![1, 1]⟩
abbrev S5000x1 : Shape := ⟨2, ![5000, 1]⟩
abbrev S5000x64 : Shape := ⟨2, ![5000, 64]⟩

abbrev nBuf : Space → Nat
  | .hbm => 67
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S64x128, .f32⟩
  | .hbm, ⟨6, _⟩ => ⟨S64x128, .f32⟩
  | .hbm, ⟨7, _⟩ => ⟨S64, .f32⟩
  | .hbm, ⟨8, _⟩ => ⟨S1x64, .f32⟩
  | .hbm, ⟨9, _⟩ => ⟨S1, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .f32⟩
  | .hbm, ⟨15, _⟩ => ⟨S1600000, .f32⟩
  | .hbm, ⟨16, _⟩ => ⟨S_, .f32⟩
  | .hbm, ⟨17, _⟩ => ⟨S100000, .f32⟩
  | .hbm, ⟨18, _⟩ => ⟨S1600000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000x1, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x128, .f32⟩
  | .hbm, ⟨36, _⟩ => ⟨S_, .f32⟩
  | .hbm, ⟨37, _⟩ => ⟨S100000x128, .f32⟩
  | .hbm, ⟨38, _⟩ => ⟨S1600000x1, .i32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S128x128, .f32⟩
  | .hbm, ⟨43, _⟩ => ⟨S128x128, .f32⟩
  | .hbm, ⟨44, _⟩ => ⟨S1x128, .f32⟩
  | .hbm, ⟨45, _⟩ => ⟨S100000x128, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x128, .f32⟩
  | .hbm, ⟨55, _⟩ => ⟨S_, .f32⟩
  | .hbm, ⟨56, _⟩ => ⟨S100000x128, .f32⟩
  | .hbm, ⟨57, _⟩ => ⟨S1600000x1, .i32⟩
  | .hbm, ⟨58, _⟩ => ⟨S100000x128, .f32⟩
  | .hbm, ⟨59, _⟩ => ⟨S100000x128, .f32⟩
  | .hbm, ⟨60, _⟩ => ⟨S100000x128, .f32⟩
  | .hbm, ⟨61, _⟩ => ⟨S128x64, .f32⟩
  | .hbm, ⟨62, _⟩ => ⟨S128x64, .f32⟩
  | .hbm, ⟨63, _⟩ => ⟨S64x1, .f32⟩
  | .hbm, ⟨64, _⟩ => ⟨S1x64, .f32⟩
  | .hbm, ⟨65, _⟩ => ⟨S1x1, .f32⟩
  | .hbm, ⟨66, _⟩ => ⟨S100000x1, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x64, .f32⟩
  | .local _ .vmem, ⟨14, _⟩ => ⟨S128x64, .f32⟩
  | .local _ .vmem, ⟨15, _⟩ => ⟨S1x64, .f32⟩
  | .local _ .vmem, ⟨16, _⟩ => ⟨S64x1, .f32⟩
  | .local _ .vmem, ⟨17, _⟩ => ⟨S1x1, .f32⟩
  | .local _ .vmem, ⟨18, _⟩ => ⟨S5000x1, .f32⟩
  | .local _ .vmem, ⟨19, _⟩ => ⟨S5000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c : Ref sig .tc := ⟨.hbm, 27, rfl⟩
abbrev main_v13 : Ref sig .tc := ⟨.hbm, 28, rfl⟩
abbrev main_v14 : Ref sig .tc := ⟨.hbm, 29, rfl⟩
abbrev main_c_3 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_5 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_7 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  transposes_S64x128_S128x64_1_0 : S64x128.Transposes [1, 0] S128x64
  transposes_S1x64_S64x1_1_0 : S1x64.Transposes [1, 0] S64x1
  shapeCasts_S64_S1x64 : S64.ShapeCasts S1x64
  shapeCasts_S1_S1x1 : S1.ShapeCasts S1x1
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  dot_S5000x64_S64x1_S5000x1_1_0_0_1_n_n_wf : DotDims.WF S5000x64 S64x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x1.size a ≤ S64x1.size a
  hwx1_5 : ∀ i : grid1.Coords, EltTy.bits .f32 = 32 ∨ (Rect.block (s := S64x1) S64x1.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x1.size a ≤ S1x1.size a
  hwx1_6 : ∀ i : grid1.Coords, EltTy.bits .f32 = 32 ∨ (Rect.block (s := S1x1) S1x1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x1.size a ≤ S100000x1.size a
  hwx1_7 : ∀ i : grid1.Coords, EltTy.bits .f32 = 32 ∨ (Rect.block (s := S100000x1) S5000x1.size (cc1_transform_7 i) (hinb1_7 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf

abbrev win0_0 : Pipeline.Window sig grid0 :=
  Pipeline.Window.ofSpec (Memref.whole main_v24) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v40) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v42) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43) S64x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v45) S1x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v46) S5000x1.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x64 : Shape := ⟨2, ![1, 64]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S128x64 : Shape := ⟨2, ![128, 64]⟩
abbrev S100000x64 : Shape := ⟨2, ![100000, 64]⟩
abbrev S64x1 : Shape := ⟨2, ![64, 1]⟩
abbrev S1x1 : Shape := ⟨2, ![1, 1]⟩

abbrev nBuf : Space → Nat
  | .hbm => 91
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S64x128, .f32⟩
  | .hbm, ⟨6, _⟩ => ⟨S64x128, .f32⟩
  | .hbm, ⟨7, _⟩ => ⟨S64, .f32⟩
  | .hbm, ⟨8, _⟩ => ⟨S1x64, .f32⟩
  | .hbm, ⟨9, _⟩ => ⟨S1, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x128, .f32⟩
  | .hbm, ⟨23, _⟩ => ⟨S_, .f32⟩
  | .hbm, ⟨24, _⟩ => ⟨S100000x128, .f32⟩
  | .hbm, ⟨25, _⟩ => ⟨S1600000x1, .i32⟩
  | .hbm, ⟨26, _⟩ => ⟨S100000x128, .f32⟩
  | .hbm, ⟨27, _⟩ => ⟨S_, .f32⟩
  | .hbm, ⟨28, _⟩ => ⟨S1600000, .f32⟩
  | .hbm, ⟨29, _⟩ => ⟨S_, .f32⟩
  | .hbm, ⟨30, _⟩ => ⟨S100000, .f32⟩
  | .hbm, ⟨31, _⟩ => ⟨S1600000x1, .i32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000x1, .f32⟩
  | .hbm, ⟨37, _⟩ => ⟨S100000x128, .f32⟩
  | .hbm, ⟨38, _⟩ => ⟨S100000x128, .f32⟩
  | .hbm, ⟨39, _⟩ => ⟨S128x128, .f32⟩
  | .hbm, ⟨40, _⟩ => ⟨S100000x128, .f32⟩
  | .hbm, ⟨41, _⟩ => ⟨S128x128, .f32⟩
  | .hbm, ⟨42, _⟩ => ⟨S100000x128, .f32⟩
  | .hbm, ⟨43, _⟩ => ⟨S100000x128, .f32⟩
  | .hbm, ⟨44, _⟩ => ⟨S1x128, .f32⟩
  | .hbm, ⟨45, _⟩ => ⟨S100000x128, .f32⟩
  | .hbm, ⟨46, _⟩ => ⟨S100000x128, .f32⟩
  | .hbm, ⟨47, _⟩ => ⟨S_, .f32⟩
  | .hbm, ⟨48, _⟩ => ⟨S100000x128, .f32⟩
  | .hbm, ⟨49, _⟩ => ⟨S100000x128, .f32⟩
  | .hbm, ⟨50, _⟩ => ⟨S_, .i32⟩
  | .hbm, ⟨51, _⟩ => ⟨S1600000, .i32⟩
  | .hbm, ⟨52, _⟩ => ⟨S1600000, .i1⟩
  | .hbm, ⟨53, _⟩ => ⟨S_, .i32⟩
  | .hbm, ⟨54, _⟩ => ⟨S1600000, .i32⟩
  | .hbm, ⟨55, _⟩ => ⟨S1600000, .i32⟩
  | .hbm, ⟨56, _⟩ => ⟨S1600000, .i32⟩
  | .hbm, ⟨57, _⟩ => ⟨S1600000x1, .i32⟩
  | .hbm, ⟨58, _⟩ => ⟨S1600000x128, .f32⟩
  | .hbm, ⟨59, _⟩ => ⟨S_, .f32⟩
  | .hbm, ⟨60, _⟩ => ⟨S100000x128, .f32⟩
  | .hbm, ⟨61, _⟩ => ⟨S1600000x1, .i32⟩
  | .hbm, ⟨62, _⟩ => ⟨S100000x128, .f32⟩
  | .hbm, ⟨63, _⟩ => ⟨S_, .f32⟩
  | .hbm, ⟨64, _⟩ => ⟨S1600000, .f32⟩
  | .hbm, ⟨65, _⟩ => ⟨S_, .f32⟩
  | .hbm, ⟨66, _⟩ => ⟨S100000, .f32⟩
  | .hbm, ⟨67, _⟩ => ⟨S1600000x1, .i32⟩
  | .hbm, ⟨68, _⟩ => ⟨S100000, .f32⟩
  | .hbm, ⟨69, _⟩ => ⟨S_, .f32⟩
  | .hbm, ⟨70, _⟩ => ⟨S100000, .f32⟩
  | .hbm, ⟨71, _⟩ => ⟨S100000, .f32⟩
  | .hbm, ⟨72, _⟩ => ⟨S100000x1, .f32⟩
  | .hbm, ⟨73, _⟩ => ⟨S100000x128, .f32⟩
  | .hbm, ⟨74, _⟩ => ⟨S100000x128, .f32⟩
  | .hbm, ⟨75, _⟩ => ⟨S128x64, .f32⟩
  | .hbm, ⟨76, _⟩ => ⟨S100000x64, .f32⟩
  | .hbm, ⟨77, _⟩ => ⟨S128x64, .f32⟩
  | .hbm, ⟨78, _⟩ => ⟨S100000x64, .f32⟩
  | .hbm, ⟨79, _⟩ => ⟨S100000x64, .f32⟩
  | .hbm, ⟨80, _⟩ => ⟨S1x64, .f32⟩
  | .hbm, ⟨81, _⟩ => ⟨S100000x64, .f32⟩
  | .hbm, ⟨82, _⟩ => ⟨S100000x64, .f32⟩
  | .hbm, ⟨83, _⟩ => ⟨S_, .f32⟩
  | .hbm, ⟨84, _⟩ => ⟨S100000x64, .f32⟩
  | .hbm, ⟨85, _⟩ => ⟨S100000x64, .f32⟩
  | .hbm, ⟨86, _⟩ => ⟨S64x1, .f32⟩
  | .hbm, ⟨87, _⟩ => ⟨S100000x1, .f32⟩
  | .hbm, ⟨88, _⟩ => ⟨S1x1, .f32⟩
  | .hbm, ⟨89, _⟩ => ⟨S100000x1, .f32⟩
  | .hbm, ⟨90, _⟩ => ⟨S100000x1, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_call0_cst : Ref sig .tc := ⟨.hbm, 47, rfl⟩
abbrev main_call0_v0 : Ref sig .tc := ⟨.hbm, 48, rfl⟩
abbrev main_v31 : Ref sig .tc := ⟨.hbm, 49, rfl⟩
abbrev main_c_4 : Ref sig .tc := ⟨.hbm, 50, rfl⟩
abbrev main_v32 : Ref sig .tc := ⟨.hbm, 51, rfl⟩
abbrev main_v33 : Ref sig .tc := ⟨.hbm, 52, rfl⟩
abbrev main_c_5 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_6 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_7 : Ref sig .tc := ⟨.hbm, 63, rfl⟩
abbrev main_v42 : Ref sig .tc := ⟨.hbm, 64, rfl⟩
abbrev main_cst_8 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_9 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_call1_cst : Ref sig .tc := ⟨.hbm, 83, rfl⟩
abbrev main_call1_v0 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  transposes_S1x64_S64x1_1_0 : S1x64.Transposes [1, 0] S64x1
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []
  dot_S100000x64_S64x1_S100000x1_1_0_0_1_n_n_wf : DotDims.WF S100000x64 S64x1 S100000x1 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.KernelRun.lean ====
/-
  The idealized kernel program's run with its RESULT array named: @main is four segments — the host operations before the first
  kernel region, that region, the host operations between the regions, the second region — and after the last one every
  unscoped buffer holds the last boundary's contents `W4`; the frame claim reads the ten argument arrays off that state, and
  here the result buffer is read off it as well.
-/
import proofs.«131550_j7310034337833_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's contents
    and the argument arrays as launched. -/
theorem run_result : θ_run defs (onTc (τ := τ) (main (F := F))) ⟨m, fun _ => 0, ρ⟩ (fun r => ∀ c : Dev nD,
      r.2.mem ((c.tc : Thread nD τ).loc main_v46) = W4 m ρ c (Proc.devRef .tc main_v46)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v46 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c)⟩)

end Cert.KernelIdeal.Hand

end
-- ==== Proof.HostChain.lean ====
/-
  What the host operations of the idealized kernel program leave in the buffers the two kernel regions read.

  Before the first region: the edge list's two rows (sources, with negative indices wrapped, and destinations), the reciprocal
  in-degree 1 / max(deg, 1) as a column, the mean aggregation of the node features `x` (the rows of `x` gathered at the sources,
  summed into the destinations, times the reciprocal degree), the two weight matrices transposed and the bias as a one-row matrix.
  Between the regions: the same aggregation of the first region's output, and the second layer's and the classifier's weights
  transposed, the biases as one-row matrices. Every buffer a region does not write keeps what it held when the region was entered.
-/
import proofs.«131550_j7310034337833_1_alg».proof.Proof.Gen.KernelIdeal.Frame
import Idealize.ShloMosaic.Lib.StableHlo.Run
import Idealize.ShloMosaic.PureOps.Ideal

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

/-! ## The host terms, named -/

/-- The edges' source nodes: row 0 of the edge list. -/
def srcRow (e : IVec S2x1600000 32) : IVec S1600000 32 :=
  shapeCast S1600000 (extractStridedSlice S1x1600000 ![0, 0] e slices_S2x1600000_S1x1600000_0_0) shapeCasts_S1x1600000_S1600000
/-- The edges' destination nodes: row 1 of the edge list. -/
def dstRow (e : IVec S2x1600000 32) : IVec S1600000 32 :=
  shapeCast S1600000 (extractStridedSlice S1x1600000 ![1, 0] e slices_S2x1600000_S1x1600000_1_0) shapeCasts_S1x1600000_S1600000
/-- The sources as a column of gather indices, a negative index wrapped by the node count. -/
def srcCol (e : IVec S2x1600000 32) : IVec S1600000x1 32 :=
  broadcastInDim S1600000x1 ![0] bcast_S1600000_S1600000x1_0
    (select (cmpi .slt (srcRow e) (broadcastInDim S1600000 ![] bcast_S_S1600000 (constantI S_ 32 0#32)))
      (addi (srcRow e) (broadcastInDim S1600000 ![] bcast_S_S1600000 (constantI S_ 32 100000#32))) (srcRow e))
/-- The destinations as a column of scatter indices. -/
def dstCol (e : IVec S2x1600000 32) : IVec S1600000x1 32 :=
  broadcastInDim S1600000x1 ![0] bcast_S1600000_S1600000x1_0 (dstRow e)
/-- Each node's in-degree: a one summed in per incoming edge. -/
def degSum (e : IVec S2x1600000 32) : FVec Ideal S100000 .f32 :=
  Host.scatterAdd scatter_S100000_S1600000x1_S1600000_n_0_0_1
    (broadcastInDim S100000 ![] bcast_S_S100000 (constant S_ .f32 0x00000000#32)) (dstCol e)
    (broadcastInDim S1600000 ![] bcast_S_S1600000 (constant S_ .f32 0x3F800000#32))
/-- The in-degree, at least one. -/
def degMax (e : IVec S2x1600000 32) : FVec Ideal S100000 .f32 :=
  maximumf (degSum e) (broadcastInDim S100000 ![] bcast_S_S100000 (constant S_ .f32 0x3F800000#32))
/-- Its reciprocal, as a column. -/
def invDeg (e : IVec S2x1600000 32) : FVec Ideal S100000x1 .f32 :=
  broadcastInDim S100000x1 ![0] bcast_S100000_S100000x1_0
    (Host.divf (broadcastInDim S100000 ![] bcast_S_S100000 (constant S_ .f32 0x3F800000#32)) (degMax e))
/-- The rows of `y` gathered at the edges' sources and summed into their destinations. -/
def segSum (y : FVec Ideal S100000x128 .f32) (e : IVec S2x1600000 32) : FVec Ideal S100000x128 .f32 :=
  Host.scatterAdd scatter_S100000x128_S1600000x1_S1600000x128_1_0_0_1
    (broadcastInDim S100000x128 ![] bcast_S_S100000x128 (constant S_ .f32 0x00000000#32)) (dstCol e)
    (Host.gather gather_S100000x128_S1600000x1_S1600000x128_1_0_n_n_0_1_1128 y (srcCol e))
/-- Mean aggregation as this program spells it: the sums times the reciprocal degree. -/
def aggK (y : FVec Ideal S100000x128 .f32) (e : IVec S2x1600000 32) : FVec Ideal S100000x128 .f32 :=
  mulf (segSum y e) (broadcastInDim S100000x128 ![0, 1] bcast_S100000x1_S100000x128_0_1 (invDeg e))

variable (m : (ℓ : Loc nD τ sig) → Buf (Elt Ideal) ℓ) (ρ : Dev nD → PrngReg)

/-! ## When the first region is entered -/

theorem V1_v24 (c : Dev nD) : (V1 m ρ c main_v24 : S100000x128.Idx → EReal)
    = aggK (m ((c : Thread nD τ).loc main_arg0)) (m ((c : Thread nD τ).loc main_arg1)) := by
  show StableHlo.after hostOps0 (W0 m ρ c) (Proc.devRef .tc main_v24) = _
  after_results_simp <;> rfl

theorem V1_arg0 (c : Dev nD) : (V1 m ρ c main_arg0 : S100000x128.Idx → EReal) = m ((c : Thread nD τ).loc main_arg0) := by
  show StableHlo.after hostOps0 (W0 m ρ c) (Proc.devRef .tc main_arg0) = _
  after_results_simp <;> rfl

theorem V1_v25 (c : Dev nD) : (V1 m ρ c main_v25 : S128x128.Idx → EReal)
    = transpose S128x128 [1, 0] (m ((c : Thread nD τ).loc main_arg2)) transposes_S128x128_S128x128_1_0 := by
  show StableHlo.after hostOps0 (W0 m ρ c) (Proc.devRef .tc main_v25) = _
  after_results_simp <;> rfl

theorem V1_v26 (c : Dev nD) : (V1 m ρ c main_v26 : S128x128.Idx → EReal)
    = transpose S128x128 [1, 0] (m ((c : Thread nD τ).loc main_arg3)) transposes_S128x128_S128x128_1_0 := by
  show StableHlo.after hostOps0 (W0 m ρ c) (Proc.devRef .tc main_v26) = _
  after_results_simp <;> rfl

theorem V1_v27 (c : Dev nD) : (V1 m ρ c main_v27 : S1x128.Idx → EReal)
    = shapeCast S1x128 (m ((c : Thread nD τ).loc main_arg4)) shapeCasts_S128_S1x128 := by
  show StableHlo.after hostOps0 (W0 m ρ c) (Proc.devRef .tc main_v27) = _
  after_results_simp <;> rfl

/-- The edge rows and the reciprocal degree are computed once, before the first region, and read again after it. -/
theorem W1_v1 (c : Dev nD) : (W1 m ρ c (Proc.devRef .tc main_v1) : S1600000.Idx → BitVec 32) = srcRow (m ((c : Thread nD τ).loc main_arg1)) := by
  show StableHlo.after hostOps0 (W0 m ρ c) (Proc.devRef .tc main_v1) = _
  after_results_simp <;> rfl

theorem W1_v3 (c : Dev nD) : (W1 m ρ c (Proc.devRef .tc main_v3) : S1600000.Idx → BitVec 32) = dstRow (m ((c : Thread nD τ).loc main_arg1)) := by
  show StableHlo.after hostOps0 (W0 m ρ c) (Proc.devRef .tc main_v3) = _
  after_results_simp <;> rfl

theorem W1_v12 (c : Dev nD) : (W1 m ρ c (Proc.devRef .tc main_v12) : S100000x1.Idx → EReal) = invDeg (m ((c : Thread nD τ).loc main_arg1)) := by
  show StableHlo.after hostOps0 (W0 m ρ c) (Proc.devRef .tc main_v12) = _
  after_results_simp <;> rfl

theorem W1_arg (c : Dev nD) (b : Ref sig .tc) (hb : b = main_arg5 ∨ b = main_arg6 ∨ b = main_arg7 ∨ b = main_arg8 ∨ b = main_arg9) :
    W1 m ρ c (Proc.devRef .tc b) = m ((c : Thread nD τ).loc b) := by
  rcases hb with rfl | rfl | rfl | rfl | rfl <;>
  · show StableHlo.after hostOps0 (W0 m ρ c) _ = _
    after_results_simp <;> rfl

/-! ## When the second region is entered -/

/-- The first region's output array, as the second region and the host operations between the two find it. -/
abbrev hidden (c : Dev nD) : S100000x128.Idx → EReal := W2 m ρ c (Proc.devRef .tc main_v28)

theorem V3_v40 (c : Dev nD) : (V3 m ρ c main_v40 : S100000x128.Idx → EReal)
    = aggK (hidden m ρ c) (m ((c : Thread nD τ).loc main_arg1)) := by
  show StableHlo.after hostOps1 (W2 m ρ c) (Proc.devRef .tc main_v40) = _
  after_results_simp
  rw [W2_of_ne m ρ c main_v1 (by decide), W2_of_ne m ρ c main_v3 (by decide), W2_of_ne m ρ c main_v12 (by decide),
    W1_v1, W1_v3, W1_v12]
  rfl

theorem V3_v28 (c : Dev nD) : (V3 m ρ c main_v28 : S100000x128.Idx → EReal) = hidden m ρ c := by
  show StableHlo.after hostOps1 (W2 m ρ c) (Proc.devRef .tc main_v28) = _
  after_results_simp <;> rfl

theorem V3_v41 (c : Dev nD) : (V3 m ρ c main_v41 : S128x64.Idx → EReal)
    = transpose S128x64 [1, 0] (m ((c : Thread nD τ).loc main_arg5)) transposes_S64x128_S128x64_1_0 := by
  show StableHlo.after hostOps1 (W2 m ρ c) (Proc.devRef .tc main_v41) = _
  after_results_simp
  rw [W2_of_ne m ρ c main_arg5 (by decide), W1_arg m ρ c main_arg5 (Or.inl rfl)]

theorem V3_v42 (c : Dev nD) : (V3 m ρ c main_v42 : S128x64.Idx → EReal)
    = transpose S128x64 [1, 0] (m ((c : Thread nD τ).loc main_arg6)) transposes_S64x128_S128x64_1_0 := by
  show StableHlo.after hostOps1 (W2 m ρ c) (Proc.devRef .tc main_v42) = _
  after_results_simp
  rw [W2_of_ne m ρ c main_arg6 (by decide), W1_arg m ρ c main_arg6 (Or.inr (Or.inl rfl))]

theorem V3_v44 (c : Dev nD) : (V3 m ρ c main_v44 : S1x64.Idx → EReal)
    = shapeCast S1x64 (m ((c : Thread nD τ).loc main_arg7)) shapeCasts_S64_S1x64 := by
  show StableHlo.after hostOps1 (W2 m ρ c) (Proc.devRef .tc main_v44) = _
  after_results_simp
  rw [W2_of_ne m ρ c main_arg7 (by decide), W1_arg m ρ c main_arg7 (Or.inr (Or.inr (Or.inl rfl)))]
  rfl

theorem V3_v43 (c : Dev nD) : (V3 m ρ c main_v43 : S64x1.Idx → EReal)
    = transpose S64x1 [1, 0] (m ((c : Thread nD τ).loc main_arg8)) transposes_S1x64_S64x1_1_0 := by
  show StableHlo.after hostOps1 (W2 m ρ c) (Proc.devRef .tc main_v43) = _
  after_results_simp
  rw [W2_of_ne m ρ c main_arg8 (by decide), W1_arg m ρ c main_arg8 (Or.inr (Or.inr (Or.inr (Or.inl rfl))))]

theorem V3_v45 (c : Dev nD) : (V3 m ρ c main_v45 : S1x1.Idx → EReal)
    = shapeCast S1x1 (m ((c : Thread nD τ).loc main_arg9)) shapeCasts_S1_S1x1 := by
  show StableHlo.after hostOps1 (W2 m ρ c) (Proc.devRef .tc main_v45) = _
  after_results_simp
  rw [W2_of_ne m ρ c main_arg9 (by decide), W1_arg m ρ c main_arg9 (Or.inr (Or.inr (Or.inr (Or.inr rfl))))]
  rfl

end Cert.KernelIdeal.Hand

end
-- ==== Proof.Spec.lean ====
/-
  The mathematics both programs compute, index by index, over the extended reals.

  A GraphSAGE layer on N nodes: out[n, o] = max(Σ_k A[n, k]·Wl[o, k] + Σ_k X[n, k]·Wr[o, k] + b[o], 0), where A is the
  mean-aggregated neighbour features and X the nodes' own features; a linear classifier out[n, c] = Σ_k H[n, k]·Wc[c, k] + bc[c].
  The kernels receive the weight matrices already transposed ([D, O], contracted on their FIRST axis) and the biases as
  one-row matrices; `sageT` / `clsT` are the same sums read through that layout, and `sageT_eq` / `clsT_eq` say so.
  Each function is stated at a pair of coordinates (`…At`, over plain `Fin` variables) and then as an array.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The float zero the rectifier compares against (the word of +0.0, never evaluated). -/
abbrev fzero : EReal := Ideal.ofBits .f32 0x00000000#32

/-- One layer at node `n`, output feature `o`; weights as given ([O, D]), the bias a vector: relu(A·Wlᵀ + X·Wrᵀ + b). -/
def sageAt {N D O : Nat} (A X : FVec Ideal ⟨2, ![N, D]⟩ .f32) (Wl Wr : FVec Ideal ⟨2, ![O, D]⟩ .f32)
    (b : FVec Ideal ⟨1, ![O]⟩ .f32) (n : Fin N) (o : Fin O) : EReal :=
  max (((∑ k : Fin D, A (ix2 n k) * Wl (ix2 o k)) + (∑ k : Fin D, X (ix2 n k) * Wr (ix2 o k))) + b (ix1 o)) fzero

/-- The same through transposed weights ([D, O]) and a one-row bias ([1, O]). -/
def sageTAt {N D O : Nat} (A X : FVec Ideal ⟨2, ![N, D]⟩ .f32) (WlT WrT : FVec Ideal ⟨2, ![D, O]⟩ .f32)
    (B : FVec Ideal ⟨2, ![1, O]⟩ .f32) (n : Fin N) (o : Fin O) : EReal :=
  max (((∑ k : Fin D, A (ix2 n k) * WlT (ix2 k o)) + (∑ k : Fin D, X (ix2 n k) * WrT (ix2 k o))) + B (ix2 (0 : Fin 1) o)) fzero

/-- The classifier at node `n`, class `c`; weights as given ([C, D]), the bias a vector: H·Wcᵀ + bc. -/
def clsAt {N D C : Nat} (H : FVec Ideal ⟨2, ![N, D]⟩ .f32) (Wc : FVec Ideal ⟨2, ![C, D]⟩ .f32)
    (bc : FVec Ideal ⟨1, ![C]⟩ .f32) (n : Fin N) (c : Fin C) : EReal :=
  (∑ k : Fin D, H (ix2 n k) * Wc (ix2 c k)) + bc (ix1 c)

/-- The same through transposed weights ([D, C]) and a one-row bias ([1, C]). -/
def clsTAt {N D C : Nat} (H : FVec Ideal ⟨2, ![N, D]⟩ .f32) (WcT : FVec Ideal ⟨2, ![D, C]⟩ .f32)
    (Bc : FVec Ideal ⟨2, ![1, C]⟩ .f32) (n : Fin N) (c : Fin C) : EReal :=
  (∑ k : Fin D, H (ix2 n k) * WcT (ix2 k c)) + Bc (ix2 (0 : Fin 1) c)

/-- The arrays: each function at an index's two coordinates. -/
def sage (N D O : Nat) (A X : FVec Ideal ⟨2, ![N, D]⟩ .f32) (Wl Wr : FVec Ideal ⟨2, ![O, D]⟩ .f32)
    (b : FVec Ideal ⟨1, ![O]⟩ .f32) : FVec Ideal ⟨2, ![N, O]⟩ .f32 := fun i => sageAt A X Wl Wr b (i 0) (i 1)
def sageT (N D O : Nat) (A X : FVec Ideal ⟨2, ![N, D]⟩ .f32) (WlT WrT : FVec Ideal ⟨2, ![D, O]⟩ .f32)
    (B : FVec Ideal ⟨2, ![1, O]⟩ .f32) : FVec Ideal ⟨2, ![N, O]⟩ .f32 := fun i => sageTAt A X WlT WrT B (i 0) (i 1)
def cls (N D C : Nat) (H : FVec Ideal ⟨2, ![N, D]⟩ .f32) (Wc : FVec Ideal ⟨2, ![C, D]⟩ .f32)
    (bc : FVec Ideal ⟨1, ![C]⟩ .f32) : FVec Ideal ⟨2, ![N, C]⟩ .f32 := fun i => clsAt H Wc bc (i 0) (i 1)
def clsT (N D C : Nat) (H : FVec Ideal ⟨2, ![N, D]⟩ .f32) (WcT : FVec Ideal ⟨2, ![D, C]⟩ .f32)
    (Bc : FVec Ideal ⟨2, ![1, C]⟩ .f32) : FVec Ideal ⟨2, ![N, C]⟩ .f32 := fun i => clsTAt H WcT Bc (i 0) (i 1)

theorem sage_apply {N D O : Nat} (A X : FVec Ideal ⟨2, ![N, D]⟩ .f32) (Wl Wr : FVec Ideal ⟨2, ![O, D]⟩ .f32)
    (b : FVec Ideal ⟨1, ![O]⟩ .f32) (n : Fin N) (o : Fin O) : sage N D O A X Wl Wr b (ix2 n o) = sageAt A X Wl Wr b n o := rfl
theorem sageT_apply {N D O : Nat} (A X : FVec Ideal ⟨2, ![N, D]⟩ .f32) (WlT WrT : FVec Ideal ⟨2, ![D, O]⟩ .f32)
    (B : FVec Ideal ⟨2, ![1, O]⟩ .f32) (n : Fin N) (o : Fin O) : sageT N D O A X WlT WrT B (ix2 n o) = sageTAt A X WlT WrT B n o := rfl
theorem cls_apply {N D C : Nat} (H : FVec Ideal ⟨2, ![N, D]⟩ .f32) (Wc : FVec Ideal ⟨2, ![C, D]⟩ .f32)
    (bc : FVec Ideal ⟨1, ![C]⟩ .f32) (n : Fin N) (c : Fin C) : cls N D C H Wc bc (ix2 n c) = clsAt H Wc bc n c := rfl
theorem clsT_apply {N D C : Nat} (H : FVec Ideal ⟨2, ![N, D]⟩ .f32) (WcT : FVec Ideal ⟨2, ![D, C]⟩ .f32)
    (Bc : FVec Ideal ⟨2, ![1, C]⟩ .f32) (n : Fin N) (c : Fin C) : clsT N D C H WcT Bc (ix2 n c) = clsTAt H WcT Bc n c := rfl

/-- A layer read through transposed weights is the layer. -/
theorem sageTAt_eq {N D O : Nat} (A X : FVec Ideal ⟨2, ![N, D]⟩ .f32) (Wl Wr : FVec Ideal ⟨2, ![O, D]⟩ .f32)
    (b : FVec Ideal ⟨1, ![O]⟩ .f32) (WlT WrT : FVec Ideal ⟨2, ![D, O]⟩ .f32) (B : FVec Ideal ⟨2, ![1, O]⟩ .f32)
    (hl : ∀ (k : Fin D) (o : Fin O), WlT (ix2 k o) = Wl (ix2 o k)) (hr : ∀ (k : Fin D) (o : Fin O), WrT (ix2 k o) = Wr (ix2 o k))
    (hb : ∀ o : Fin O, B (ix2 (0 : Fin 1) o) = b (ix1 o)) (n : Fin N) (o : Fin O) :
    sageTAt A X WlT WrT B n o = sageAt A X Wl Wr b n o := by
  unfold sageTAt sageAt
  simp only [hl, hr, hb]

theorem sageT_eq {N D O : Nat} (A X : FVec Ideal ⟨2, ![N, D]⟩ .f32) (Wl Wr : FVec Ideal ⟨2, ![O, D]⟩ .f32)
    (b : FVec Ideal ⟨1, ![O]⟩ .f32) (WlT WrT : FVec Ideal ⟨2, ![D, O]⟩ .f32) (B : FVec Ideal ⟨2, ![1, O]⟩ .f32)
    (hl : ∀ (k : Fin D) (o : Fin O), WlT (ix2 k o) = Wl (ix2 o k)) (hr : ∀ (k : Fin D) (o : Fin O), WrT (ix2 k o) = Wr (ix2 o k))
    (hb : ∀ o : Fin O, B (ix2 (0 : Fin 1) o) = b (ix1 o)) :
    sageT N D O A X WlT WrT B = sage N D O A X Wl Wr b :=
  funext fun i => sageTAt_eq A X Wl Wr b WlT WrT B hl hr hb (i 0) (i 1)

/-- A classifier read through transposed weights is the classifier. -/
theorem clsTAt_eq {N D C : Nat} (H : FVec Ideal ⟨2, ![N, D]⟩ .f32) (Wc : FVec Ideal ⟨2, ![C, D]⟩ .f32)
    (bc : FVec Ideal ⟨1, ![C]⟩ .f32) (WcT : FVec Ideal ⟨2, ![D, C]⟩ .f32) (Bc : FVec Ideal ⟨2, ![1, C]⟩ .f32)
    (hc : ∀ (k : Fin D) (o : Fin C), WcT (ix2 k o) = Wc (ix2 o k)) (hb : ∀ o : Fin C, Bc (ix2 (0 : Fin 1) o) = bc (ix1 o))
    (n : Fin N) (c : Fin C) : clsTAt H WcT Bc n c = clsAt H Wc bc n c := by
  unfold clsTAt clsAt
  simp only [hc, hb]

theorem clsT_eq {N D C : Nat} (H : FVec Ideal ⟨2, ![N, D]⟩ .f32) (Wc : FVec Ideal ⟨2, ![C, D]⟩ .f32)
    (bc : FVec Ideal ⟨1, ![C]⟩ .f32) (WcT : FVec Ideal ⟨2, ![D, C]⟩ .f32) (Bc : FVec Ideal ⟨2, ![1, C]⟩ .f32)
    (hc : ∀ (k : Fin D) (o : Fin C), WcT (ix2 k o) = Wc (ix2 o k)) (hb : ∀ o : Fin C, Bc (ix2 (0 : Fin 1) o) = bc (ix1 o)) :
    clsT N D C H WcT Bc = cls N D C H Wc bc :=
  funext fun i => clsTAt_eq H Wc bc WcT Bc hc hb (i 0) (i 1)

end Cert.Spec

end
-- ==== Proof.Region0Pay.lean ====
/-
  The arithmetic of one block of the first layer, read at a pair of coordinates.

  The body takes a block of 5000 rows of the aggregated features (x0) and of the nodes' own features (x1), the two
  transposed weight matrices (x2, x3: [128, 128], contracted on their first axis) and the one-row bias (x4), and leaves
  max(x0·x2 + x1·x3 + bias, 0). At row p, column q that is the two sums over the 128 contracted features, the bias at
  column q, and the maximum with the float zero: entry (p, q) depends on row p of x0 and x1, column q of x2 and x3 and
  entry q of the bias row, and on nothing else.
-/
import proofs.«131550_j7310034337833_1_alg».proof.Proof.Gen.KernelIdeal.Skeleton
import proofs.«131550_j7310034337833_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem

namespace Cert.KernelIdeal.Region0

open Cert.KernelIdeal Cert.KernelIdeal.Gen Idealize.ShloMosaic.ValueIdx

/-- The dimension numbers of both products: [5000, 128] times [128, 128], contracting the left operand's second axis
    with the right operand's first. -/
abbrev dotD : DotDims S5000x128 S128x128 S5000x128 := dot_S5000x128_S128x128_S5000x128_1_0_0_1_n_n

/-- The left operand is read at the output's row … -/
theorem lhs_row (i : S5000x128.Idx) (r : dotD.contr.Idx) : (dotD.lhsIdx i r 0).val = (i 0).val := by
  unfold DotDims.lhsIdx
  rw [dif_neg (show ¬(0 : Fin S5000x128.rank) ∈ dotD.lhsBatch by decide), dif_pos (show (0 : Fin S5000x128.rank) ∈ dotD.lhsNonContracting by decide)]
  rfl
/-- … and the contracted feature, -/
theorem lhs_col (i : S5000x128.Idx) (r : dotD.contr.Idx) : (dotD.lhsIdx i r 1).val = (r ⟨0, by decide⟩).val :=
  dotD.lhsIdx_val_of_single rfl i r
/-- the right operand at the contracted feature … -/
theorem rhs_row (i : S5000x128.Idx) (r : dotD.contr.Idx) : (dotD.rhsIdx i r 0).val = (r ⟨0, by decide⟩).val :=
  dotD.rhsIdx_val_of_single rfl i r
/-- … and the output's column. -/
theorem rhs_col (i : S5000x128.Idx) (r : dotD.contr.Idx) : (dotD.rhsIdx i r 1).val = (i 1).val := by
  unfold DotDims.rhsIdx
  rw [dif_neg (show ¬(1 : Fin S128x128.rank) ∈ dotD.rhsBatch by decide), dif_pos (show (1 : Fin S128x128.rank) ∈ dotD.rhsNonContracting by decide)]
  rfl

/-- A block product into the zero accumulator, at row p and column q: the sum over the 128 contracted features of the
    left operand's row p times the right operand's column q. -/
theorem matmul_zero_apply {φ₁ φ₂ : FTy} (a : FVec Ideal S5000x128 φ₁) (b : FVec Ideal S128x128 φ₂) (p : Fin 5000) (q : Fin 128) :
    matmul (F := Ideal) dotD none a b (constant (F := Ideal) S5000x128 .f32 0x00000000#32) (ix2 p q)
      = ∑ k : Fin 128, a (ix2 p k) * b (ix2 k q) := by
  simp only [matmul]
  rw [Ideal.matmul_constant_zero_apply, ← Equiv.sum_comp (contrEquiv1 dotD 128 rfl rfl).symm]
  refine Finset.sum_congr rfl fun k _ => ?_
  have hk := contrEquiv1_symm_val dotD 128 rfl rfl k
  have el : dotD.lhsIdx (ix2 p q) ((contrEquiv1 dotD 128 rfl rfl).symm k) = ix2 p k := funext fun d => Fin.ext (by
    match d with
    | ⟨0, _⟩ => exact lhs_row _ _
    | ⟨1, _⟩ => exact (lhs_col _ _).trans hk)
  have er : dotD.rhsIdx (ix2 p q) ((contrEquiv1 dotD 128 rfl rfl).symm k) = ix2 k q := funext fun d => Fin.ext (by
    match d with
    | ⟨0, _⟩ => exact (rhs_row _ _).trans hk
    | ⟨1, _⟩ => exact rhs_col _ _)
  rw [el, er]

/-- The bias row spread over the 5000 rows reads, at (p, q), the row's entry q. -/
theorem bias_apply (x4 : FVec Ideal S1x128 .f32) (p : Fin 5000) (q : Fin 128) :
    broadcastTo S5000x128 x4 broadcasts_S1x128_S5000x128 (ix2 p q) = x4 (ix2 (0 : Fin 1) q) :=
  broadcastTo_apply x4 broadcasts_S1x128_S5000x128 (ix2 p q) (ix2 (0 : Fin 1) q) (fun d => by
    match d with
    | ⟨0, _⟩ => show (0 : Nat) = if (1 : Nat) = 1 then 0 else p.val; rw [if_pos rfl]
    | ⟨1, _⟩ => show q.val = if (128 : Nat) = 1 then 0 else q.val; rw [if_neg (by decide)])

/-- THE BLOCK'S ENTRY (p, q): max(Σ_k x0[p, k]·x2[k, q] + Σ_k x1[p, k]·x3[k, q] + x4[0, q], 0). The narrowing to bf16 in
    front of each product is the identity on extended reals; the same-shape casts are the identity. -/
theorem pay_apply (x0 x1 : Vec Ideal S5000x128 .f32) (x2 x3 : Vec Ideal S128x128 .f32) (x4 : Vec Ideal S1x128 .f32)
    (p : Fin 5000) (q : Fin 128) :
    k0_pay1 (F := Ideal) x0 x1 x2 x3 x4 (ix2 p q)
      = max (((∑ k : Fin 128, x0 (ix2 p k) * x2 (ix2 k q)) + (∑ k : Fin 128, x1 (ix2 p k) * x3 (ix2 k q))) + x4 (ix2 (0 : Fin 1) q))
          (Ideal.ofBits .f32 0x00000000#32) := by
  unfold k0_pay1
  simp only [shapeCast_self]
  refine (maximumf_apply _ _ _).trans ?_
  refine congrArg₂ max ?_ rfl
  refine (addf_apply _ _ _).trans ?_
  refine congrArg₂ (· + ·) ?_ (bias_apply x4 p q)
  refine (addf_apply _ _ _).trans ?_
  exact congrArg₂ (· + ·) (matmul_zero_apply _ _ p q) (matmul_zero_apply _ _ p q)

end Cert.KernelIdeal.Region0

end
-- ==== Proof.Region0.lean ====
/-
  The first layer's output array after all twenty grid points, as one function of the arrays the region is entered with.

  The grid cuts the 100000 rows into twenty blocks of 5000. At point t the body reads block t of the aggregated
  features and of the nodes' own features, the two whole transposed weight matrices and the whole bias row, and writes
  block t of the output: rows 5000·t … 5000·t + 4999. Entry (p, q) of that block is the layer at node 5000·t + p and
  output feature q, which reads row 5000·t + p of the two feature arrays, column q of the weights and entry q of the bias.
  Row r of the output lies in the block of point r / 5000, so the twenty blocks cover the array and it ends holding the layer.
-/
import proofs.«131550_j7310034337833_1_alg».proof.Proof.Gen.KernelIdeal.Frame
import proofs.«131550_j7310034337833_1_alg».proof.Proof.Spec
import proofs.«131550_j7310034337833_1_alg».proof.Proof.Region0Pay
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)

namespace Cert.KernelIdeal.Region0

open Cert.KernelIdeal Cert.KernelIdeal.Gen Idealize.ShloMosaic.ValueIdx

variable (V : (c : Dev nD) → (b : Ref sig .tc) → Buf (Elt Ideal) ((c : Thread nD τ).loc b))

/-- The body reads and writes its buffers whole: at offsets zero. -/
theorem zero_offsets : (![0, 0] : Fin 2 → Nat) = fun _ => 0 := funext fun a => by fin_cases a <;> rfl

/-- The block indices over the grid: the two feature windows and the output move down the rows with the point, one block
    of 5000 rows each; the weights and the bias stay at their one block. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Block t of the aggregated features, at (p, k), is row 5000·t + p of the array. -/
theorem agg_block_apply (c : Dev nD) (t : Fin cfg0.N) (p : Fin 5000) (k : Fin 128) (n : Fin 100000)
    (hn : n.val = 5000 * t.val + p.val) :
    (iblk0 V c 0 t : Vec Ideal S5000x128 .f32) (ix2 p k) = (V c main_v24 : S100000x128.Idx → EReal) (ix2 n k) := by
  obtain ⟨e0, e1, -⟩ := block_indices t
  unfold iblk0
  rw [View.read_apply]
  show V c main_v24 _ = V c main_v24 _
  congr 1
  funext a
  apply Fin.ext
  match a with
  | ⟨0, _⟩ => show win0_0.index t (0 : Fin 2) * 5000 + 1 * p.val = n.val; rw [e0, hn]; omega
  | ⟨1, _⟩ => show win0_0.index t (1 : Fin 2) * 128 + 1 * k.val = k.val; rw [e1]; omega

/-- Block t of the nodes' own features, at (p, k), is row 5000·t + p of the array. -/
theorem own_block_apply (c : Dev nD) (t : Fin cfg0.N) (p : Fin 5000) (k : Fin 128) (n : Fin 100000)
    (hn : n.val = 5000 * t.val + p.val) :
    (iblk0 V c 1 t : Vec Ideal S5000x128 .f32) (ix2 p k) = (V c main_arg0 : S100000x128.Idx → EReal) (ix2 n k) := by
  obtain ⟨-, -, e0, e1, -⟩ := block_indices t
  unfold iblk0
  rw [View.read_apply]
  show V c main_arg0 _ = V c main_arg0 _
  congr 1
  funext a
  apply Fin.ext
  match a with
  | ⟨0, _⟩ => show win0_1.index t (0 : Fin 2) * 5000 + 1 * p.val = n.val; rw [e0, hn]; omega
  | ⟨1, _⟩ => show win0_1.index t (1 : Fin 2) * 128 + 1 * k.val = k.val; rw [e1]; omega

/-- The one block of the first weight matrix is the matrix. -/
theorem wl_block_apply (c : Dev nD) (t : Fin cfg0.N) (k q : Fin 128) :
    (iblk0 V c 2 t : Vec Ideal S128x128 .f32) (ix2 k q) = (V c main_v25 : S128x128.Idx → EReal) (ix2 k q) := by
  obtain ⟨-, -, -, -, e0, e1, -⟩ := block_indices t
  unfold iblk0
  rw [View.read_apply]
  show V c main_v25 _ = V c main_v25 _
  congr 1
  funext a
  apply Fin.ext
  match a with
  | ⟨0, _⟩ => show win0_2.index t (0 : Fin 2) * 128 + 1 * k.val = k.val; rw [e0]; omega
  | ⟨1, _⟩ => show win0_2.index t (1 : Fin 2) * 128 + 1 * q.val = q.val; rw [e1]; omega

/-- The one block of the second weight matrix is the matrix. -/
theorem wr_block_apply (c : Dev nD) (t : Fin cfg0.N) (k q : Fin 128) :
    (iblk0 V c 3 t : Vec Ideal S128x128 .f32) (ix2 k q) = (V c main_v26 : S128x128.Idx → EReal) (ix2 k q) := by
  obtain ⟨-, -, -, -, -, -, e0, e1, -⟩ := block_indices t
  unfold iblk0
  rw [View.read_apply]
  show V c main_v26 _ = V c main_v26 _
  congr 1
  funext a
  apply Fin.ext
  match a with
  | ⟨0, _⟩ => show win0_3.index t (0 : Fin 2) * 128 + 1 * k.val = k.val; rw [e0]; omega
  | ⟨1, _⟩ => show win0_3.index t (1 : Fin 2) * 128 + 1 * q.val = q.val; rw [e1]; omega

/-- The one block of the bias row is the row. -/
theorem bias_block_apply (c : Dev nD) (t : Fin cfg0.N) (q : Fin 128) :
    (iblk0 V c 4 t : Vec Ideal S1x128 .f32) (ix2 (0 : Fin 1) q) = (V c main_v27 : S1x128.Idx → EReal) (ix2 (0 : Fin 1) q) := by
  obtain ⟨-, -, -, -, -, -, -, -, e0, e1, -⟩ := block_indices t
  unfold iblk0
  rw [View.read_apply]
  show V c main_v27 _ = V c main_v27 _
  congr 1
  funext a
  apply Fin.ext
  match a with
  | ⟨0, _⟩ => show win0_4.index t (0 : Fin 2) * 1 + 1 * 0 = 0; rw [e0]
  | ⟨1, _⟩ => show win0_4.index t (1 : Fin 2) * 128 + 1 * q.val = q.val; rw [e1]; omega

/-- Entry (p, q) of the output's block t sits at row 5000·t + p, column q of the array. -/
theorem out_block_index (t : Fin cfg0.N) (p : Fin 5000) (q : Fin 128) (n : Fin 100000) (hn : n.val = 5000 * t.val + p.val) :
    (((cfg0.win 5).blk t).view.emb (ix2 p q) : S100000x128.Idx) = ix2 n q := by
  obtain ⟨-, -, -, -, -, -, -, -, -, -, e0, e1⟩ := block_indices t
  funext a
  apply Fin.ext
  match a with
  | ⟨0, _⟩ => show win0_5.index t (0 : Fin 2) * 5000 + 1 * p.val = n.val; rw [e0, hn]; omega
  | ⟨1, _⟩ => show win0_5.index t (1 : Fin 2) * 128 + 1 * q.val = q.val; rw [e1]; omega

/-- WHAT POINT t WRITES BACK is block t of the layer of the arrays the region is entered with. -/
theorem flushed_eq (c : Dev nD) (t : Fin cfg0.N) :
    (dat0 (F := Ideal) V c).flushed 5 t
      = ((cfg0.win 5).blk t).view.read (Elt Ideal)
          (Cert.Spec.sageT 100000 128 128 (V c main_v24) (V c main_arg0) (V c main_v25) (V c main_v26) (V c main_v27)) := by
  show (cfg0.win 5).cut (grid0.coords t) ((dat0 V c).after 5 t) = _
  rw [after0_5]
  unfold out0_5
  rw [View.canon_unit_zero zero_offsets]
  simp only [View.ld_unit_zero (S := S5000x128) zero_offsets, View.ld_unit_zero (S := S128x128) zero_offsets,
    View.ld_unit_zero (S := S1x128) zero_offsets]
  funext y
  obtain ⟨p, q, rfl⟩ : ∃ (p : Fin 5000) (q : Fin 128), y = ix2 p q := ⟨y 0, y 1, eq_ix2 y⟩
  have ht : t.val < 20 := lt_of_lt_of_eq t.isLt N_0
  have hlt : 5000 * t.val + p.val < 100000 := by have := p.isLt; omega
  rw [View.read_apply, out_block_index t p q ⟨5000 * t.val + p.val, hlt⟩ rfl]
  show k0_pay1 (F := Ideal) (iblk0 V c 0 t) (iblk0 V c 1 t) (iblk0 V c 2 t) (iblk0 V c 3 t) (iblk0 V c 4 t) (ix2 p q)
    = Cert.Spec.sageTAt (V c main_v24) (V c main_arg0) (V c main_v25) (V c main_v26) (V c main_v27) ⟨5000 * t.val + p.val, hlt⟩ q
  refine (pay_apply (iblk0 V c 0 t) (iblk0 V c 1 t) (iblk0 V c 2 t) (iblk0 V c 3 t) (iblk0 V c 4 t) p q).trans ?_
  unfold Cert.Spec.sageTAt
  refine congrArg₂ max (congrArg₂ (· + ·) (congrArg₂ (· + ·) (Finset.sum_congr rfl fun k _ => ?_) (Finset.sum_congr rfl fun k _ => ?_)) ?_) rfl
  · rw [agg_block_apply V c t p k ⟨5000 * t.val + p.val, hlt⟩ rfl, wl_block_apply V c t k q]
  · rw [own_block_apply V c t p k ⟨5000 * t.val + p.val, hlt⟩ rfl, wr_block_apply V c t k q]
  · exact bias_block_apply V c t q

/-- An index of the array is in point t's block iff each coordinate is in the block's range on its axis. -/
theorem mem_block (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v28).slice (win0_5.rect t)).set ↔ _
  rw [View.set_slice_whole, Rect.mem_set_unit]
  exact Iff.rfl

/-- Row r of the array lies in the block of point r / 5000, and every point writes its block back. -/
theorem covered (i : S100000x128.Idx) :
    ∃ t : Fin cfg0.N, (cfg0.win 5).flush t = true ∧ i ∈ ((cfg0.win 5).blk t).view.set := by
  have h0 : (i 0).val < 100000 := idx2_lt0 i
  have h1 : (i 1).val < 128 := idx2_lt1 i
  have hN : cfg0.N = 20 := N_0
  have hq : (i 0).val / 5000 < cfg0.N := by rw [hN]; omega
  obtain ⟨-, -, -, -, -, -, -, -, -, -, e0, e1⟩ := block_indices ⟨(i 0).val / 5000, hq⟩
  refine ⟨⟨(i 0).val / 5000, hq⟩, flush0_5 _, ?_⟩
  rw [mem_block]
  intro a
  match a with
  | ⟨0, _⟩ =>
    show win0_5.index ⟨(i 0).val / 5000, hq⟩ (0 : Fin 2) * 5000 ≤ (i 0).val ∧ (i 0).val < win0_5.index ⟨(i 0).val / 5000, hq⟩ (0 : Fin 2) * 5000 + 5000
    rw [e0]; show (i 0).val / 5000 * 5000 ≤ (i 0).val ∧ (i 0).val < (i 0).val / 5000 * 5000 + 5000; omega
  | ⟨1, _⟩ =>
    show win0_5.index ⟨(i 0).val / 5000, hq⟩ (1 : Fin 2) * 128 ≤ (i 1).val ∧ (i 1).val < win0_5.index ⟨(i 0).val / 5000, hq⟩ (1 : Fin 2) * 128 + 128
    rw [e1]; omega

/-- THE ARRAY after the twenty points: the layer of the arrays the region is entered with, at every node and feature. -/
theorem final (c : Dev nD) :
    (dat0 (F := Ideal) V c).arrAt 5 cfg0.N
      = Cert.Spec.sageT 100000 128 128 (V c main_v24) (V c main_arg0) (V c main_v25) (V c main_v26) (V c main_v27) :=
  (dat0 V c).arrAt_eq_of_cover 5 _ (fun t _ => flushed_eq V c t) covered

end Cert.KernelIdeal.Region0

end
-- ==== Proof.Region1Pay.lean ====
/-
  The arithmetic of one block of the classifier region, read at a pair of coordinates.

  A block holds 5000 nodes. For node p of the block the region first forms the hidden row
  h[p, o] = max(Σ_k a[p, k]·wl[k, o] + Σ_k x[p, k]·wr[k, o] + b[0, o], 0) over the 128 input features, o ranging over
  the 64 hidden features, and then the score out[p, c] = Σ_o h[p, o]·wc[o, c] + bc[0, c] for the single class c.
  Over the extended reals the roundings to the narrower float format are the identity and each matrix product into a
  zero accumulator is the plain finite sum, so the block's payload is exactly the layer-then-classifier function of
  the specification, applied to the block's own rows.
-/
import proofs.«131550_j7310034337833_1_alg».proof.Proof.Gen.KernelIdeal.Skeleton
import proofs.«131550_j7310034337833_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.ValueIdx

namespace Cert.KernelIdeal.Region1

open Cert.KernelIdeal Cert.KernelIdeal.Gen

/-! ## The two matrix products at a pair of coordinates

The first product contracts the 128 input features ([5000,128]·[128,64]); the second the 64 hidden features
([5000,64]·[64,1]). In both the left operand is read at (row, k) and the right operand at (k, column). -/

theorem lhs_hidden_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs_hidden_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
theorem rhs_hidden_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
theorem rhs_hidden_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The product over the input features, into a zero accumulator, at node `p` and hidden feature `o`. -/
theorem matmul_hidden_apply (l : FVec Ideal S5000x128 .bf16) (r : FVec Ideal S128x64 .bf16) (p : Fin 5000) (o : Fin 64) :
    matmul (F := Ideal) dot_S5000x128_S128x64_S5000x64_1_0_0_1_n_n none l r (constant (F := Ideal) S5000x64 .f32 0x00000000#32) (ix2 p o)
      = ∑ k : Fin 128, l (ix2 p k) * r (ix2 k o) := by
  refine (Ideal.matmul_constant_zero_apply dot_S5000x128_S128x64_S5000x64_1_0_0_1_n_n none l r (ix2 p o)).trans ?_
  rw [← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx (ix2 p o) ((ValueIdx.contrEquiv1 dot_S5000x128_S128x64_S5000x64_1_0_0_1_n_n 128 rfl rfl).symm k) = ix2 p k := funext fun a => Fin.ext (by
    match a with
    | ⟨0, _⟩ => exact lhs_hidden_0 _ _
    | ⟨1, _⟩ => exact (lhs_hidden_1 _ _).trans hk)
  have er : dot_S5000x128_S128x64_S5000x64_1_0_0_1_n_n.rhsIdx (ix2 p o) ((ValueIdx.contrEquiv1 dot_S5000x128_S128x64_S5000x64_1_0_0_1_n_n 128 rfl rfl).symm k) = ix2 k o := funext fun a => Fin.ext (by
    match a with
    | ⟨0, _⟩ => exact (rhs_hidden_0 _ _).trans hk
    | ⟨1, _⟩ => exact rhs_hidden_1 _ _)
  rw [el, er]

theorem lhs_score_0 (i : S5000x1.Idx) (q : dot_S5000x64_S64x1_S5000x1_1_0_0_1_n_n.contr.Idx) :
    (dot_S5000x64_S64x1_S5000x1_1_0_0_1_n_n.lhsIdx i q 0).val = (i 0).val := by
  unfold DotDims.lhsIdx
  rw [dif_neg (show ¬(0 : Fin S5000x64.rank) ∈ dot_S5000x64_S64x1_S5000x1_1_0_0_1_n_n.lhsBatch by decide), dif_pos (show (0 : Fin S5000x64.rank) ∈ dot_S5000x64_S64x1_S5000x1_1_0_0_1_n_n.lhsNonContracting by decide)]
  rfl
theorem lhs_score_1 (i : S5000x1.Idx) (q : dot_S5000x64_S64x1_S5000x1_1_0_0_1_n_n.contr.Idx) :
    (dot_S5000x64_S64x1_S5000x1_1_0_0_1_n_n.lhsIdx i q 1).val = (q ⟨0, by decide⟩).val :=
  dot_S5000x64_S64x1_S5000x1_1_0_0_1_n_n.lhsIdx_val_of_single rfl i q
theorem rhs_score_0 (i : S5000x1.Idx) (q : dot_S5000x64_S64x1_S5000x1_1_0_0_1_n_n.contr.Idx) :
    (dot_S5000x64_S64x1_S5000x1_1_0_0_1_n_n.rhsIdx i q 0).val = (q ⟨0, by decide⟩).val :=
  dot_S5000x64_S64x1_S5000x1_1_0_0_1_n_n.rhsIdx_val_of_single rfl i q
theorem rhs_score_1 (i : S5000x1.Idx) (q : dot_S5000x64_S64x1_S5000x1_1_0_0_1_n_n.contr.Idx) :
    (dot_S5000x64_S64x1_S5000x1_1_0_0_1_n_n.rhsIdx i q 1).val = (i 1).val := by
  unfold DotDims.rhsIdx
  rw [dif_neg (show ¬(1 : Fin S64x1.rank) ∈ dot_S5000x64_S64x1_S5000x1_1_0_0_1_n_n.rhsBatch by decide), dif_pos (show (1 : Fin S64x1.rank) ∈ dot_S5000x64_S64x1_S5000x1_1_0_0_1_n_n.rhsNonContracting by decide)]
  rfl

/-- The product over the hidden features, into a zero accumulator, at node `p` and class `c`. -/
theorem matmul_score_apply (l : FVec Ideal S5000x64 .bf16) (r : FVec Ideal S64x1 .bf16) (p : Fin 5000) (c : Fin 1) :
    matmul (F := Ideal) dot_S5000x64_S64x1_S5000x1_1_0_0_1_n_n none l r (constant (F := Ideal) S5000x1 .f32 0x00000000#32) (ix2 p c)
      = ∑ k : Fin 64, l (ix2 p k) * r (ix2 k c) := by
  refine (Ideal.matmul_constant_zero_apply dot_S5000x64_S64x1_S5000x1_1_0_0_1_n_n none l r (ix2 p c)).trans ?_
  rw [← Equiv.sum_comp (ValueIdx.contrEquiv1 dot_S5000x64_S64x1_S5000x1_1_0_0_1_n_n 64 rfl rfl).symm]
  refine Finset.sum_congr rfl fun k _ => ?_
  have hk := ValueIdx.contrEquiv1_symm_val dot_S5000x64_S64x1_S5000x1_1_0_0_1_n_n 64 rfl rfl k
  have el : dot_S5000x64_S64x1_S5000x1_1_0_0_1_n_n.lhsIdx (ix2 p c) ((ValueIdx.contrEquiv1 dot_S5000x64_S64x1_S5000x1_1_0_0_1_n_n 64 rfl rfl).symm k) = ix2 p k := funext fun a => Fin.ext (by
    match a with
    | ⟨0, _⟩ => exact lhs_score_0 _ _
    | ⟨1, _⟩ => exact (lhs_score_1 _ _).trans hk)
  have er : dot_S5000x64_S64x1_S5000x1_1_0_0_1_n_n.rhsIdx (ix2 p c) ((ValueIdx.contrEquiv1 dot_S5000x64_S64x1_S5000x1_1_0_0_1_n_n 64 rfl rfl).symm k) = ix2 k c := funext fun a => Fin.ext (by
    match a with
    | ⟨0, _⟩ => exact (rhs_score_0 _ _).trans hk
    | ⟨1, _⟩ => exact rhs_score_1 _ _)
  rw [el, er]

/-! ## The block's payload -/

/-- The payload of one block at node `p` of the block and class `q`: the classifier's sum over the hidden features of
    the rectified layer at `p`, plus the class bias — the specification's two functions on the block's own 5000 rows. -/
theorem pay_apply (x0 x1 : Vec Ideal S5000x128 .f32) (x2 x3 : Vec Ideal S128x64 .f32) (x4 : Vec Ideal S1x64 .f32)
    (x5 : Vec Ideal S64x1 .f32) (x6 : Vec Ideal S1x1 .f32) (p : Fin 5000) (q : Fin 1) :
    k1_pay1 (F := Ideal) x0 x1 x2 x3 x4 x5 x6 (ix2 p q)
      = Cert.Spec.clsTAt (Cert.Spec.sageT 5000 128 64 x0 x1 x2 x3 x4) x5 x6 p q := by
  unfold k1_pay1
  simp only [shapeCast_self]
  simp only [addf_apply, maximumf_apply, truncf_apply, broadcast_apply, matmul_score_apply, matmul_hidden_apply,
    broadcastTo_1b_ab_apply]
  rfl

end Cert.KernelIdeal.Region1

end
-- ==== Proof.Region1.lean ====
/-
  The classifier region as one function of the arrays it is entered with.

  The region walks 20 grid points. At point t it holds rows 5000·t … 5000·t + 4999 of the two feature arrays (the
  aggregated neighbour features and the nodes' own features), the whole of the two weight matrices, of the two bias
  rows and of the classifier's column, and it writes back rows 5000·t … 5000·t + 4999 of the score column. The value
  at node p of the block is a function of that node's own two feature rows and of the whole weights only, so the block
  written at point t is the restriction, to those rows, of ONE function of the arrays: the rectified layer followed
  by the classifier. The 20 blocks tile the 100000 rows (row r lies in block r / 5000), hence after the last point
  the score array is that function everywhere.
-/
import proofs.«131550_j7310034337833_1_alg».proof.Proof.Gen.KernelIdeal.Frame
import proofs.«131550_j7310034337833_1_alg».proof.Proof.Spec
import proofs.«131550_j7310034337833_1_alg».proof.Proof.Region1Pay
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)
open Idealize.ShloMosaic.ValueIdx

namespace Cert.KernelIdeal.Region1

open Cert.KernelIdeal Cert.KernelIdeal.Gen

variable (V : (c : Dev nD) → (b : Ref sig .tc) → Buf (Elt Ideal) ((c : Thread nD τ).loc b))

/-- The whole-buffer rectangle starts at the origin. -/
theorem origin : (![0, 0] : Fin 2 → Nat) = fun _ => 0 := funext fun a => by fin_cases a <;> rfl

/-! ## Where each window's block sits

Decided once over the 20 points: the two feature windows and the score window are at block row `t`, column block 0;
the weights, the biases and the classifier's column are at block (0, 0) throughout. -/

theorem block_index : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = t.val ∧ win1_7.index t (1 : Fin 2) = 0) :=
  (by decide +kernel : ∀ t : Fin grid1.N, _)

/-! ## Each input block as rows of its array -/

/-- The aggregated-feature block at point `t`: row `p` of the block is row `5000·t + p` of the array. -/
theorem agg_block_apply (c : Dev nD) (t : Fin cfg1.N) (p : Fin 5000) (k : Fin 128) (n : Fin 100000)
    (hn : n.val = 5000 * t.val + p.val) :
    (iblk1 V c 0 t : Vec Ideal S5000x128 .f32) (ix2 p k) = (V c main_v40 : FVec Ideal S100000x128 .f32) (ix2 n k) := by
  obtain ⟨⟨e0, e1⟩, -⟩ := block_index t
  unfold iblk1
  rw [View.read_apply]
  show V c main_v40 _ = V c main_v40 _
  refine congrArg (V c main_v40) ?_
  funext a
  apply Fin.ext
  match a with
  | ⟨0, _⟩ => show win1_0.index t (0 : Fin 2) * 5000 + 1 * p.val = n.val; omega
  | ⟨1, _⟩ => show win1_0.index t (1 : Fin 2) * 128 + 1 * k.val = k.val; omega

/-- The own-feature block at point `t`: row `p` of the block is row `5000·t + p` of the array. -/
theorem own_block_apply (c : Dev nD) (t : Fin cfg1.N) (p : Fin 5000) (k : Fin 128) (n : Fin 100000)
    (hn : n.val = 5000 * t.val + p.val) :
    (iblk1 V c 1 t : Vec Ideal S5000x128 .f32) (ix2 p k) = (V c main_v28 : FVec Ideal S100000x128 .f32) (ix2 n k) := by
  obtain ⟨-, ⟨e0, e1⟩, -⟩ := block_index t
  unfold iblk1
  rw [View.read_apply]
  show V c main_v28 _ = V c main_v28 _
  refine congrArg (V c main_v28) ?_
  funext a
  apply Fin.ext
  match a with
  | ⟨0, _⟩ => show win1_1.index t (0 : Fin 2) * 5000 + 1 * p.val = n.val; omega
  | ⟨1, _⟩ => show win1_1.index t (1 : Fin 2) * 128 + 1 * k.val = k.val; omega

/-- The neighbour weights' block is the whole matrix at every point. -/
theorem wl_block_apply (c : Dev nD) (t : Fin cfg1.N) (k : Fin 128) (o : Fin 64) :
    (iblk1 V c 2 t : Vec Ideal S128x64 .f32) (ix2 k o) = (V c main_v41 : FVec Ideal S128x64 .f32) (ix2 k o) := by
  obtain ⟨-, -, ⟨e0, e1⟩, -⟩ := block_index t
  unfold iblk1
  rw [View.read_apply]
  show V c main_v41 _ = V c main_v41 _
  refine congrArg (V c main_v41) ?_
  funext a
  apply Fin.ext
  match a with
  | ⟨0, _⟩ => show win1_2.index t (0 : Fin 2) * 128 + 1 * k.val = k.val; omega
  | ⟨1, _⟩ => show win1_2.index t (1 : Fin 2) * 64 + 1 * o.val = o.val; omega

/-- The own weights' block is the whole matrix at every point. -/
theorem wr_block_apply (c : Dev nD) (t : Fin cfg1.N) (k : Fin 128) (o : Fin 64) :
    (iblk1 V c 3 t : Vec Ideal S128x64 .f32) (ix2 k o) = (V c main_v42 : FVec Ideal S128x64 .f32) (ix2 k o) := by
  obtain ⟨-, -, -, ⟨e0, e1⟩, -⟩ := block_index t
  unfold iblk1
  rw [View.read_apply]
  show V c main_v42 _ = V c main_v42 _
  refine congrArg (V c main_v42) ?_
  funext a
  apply Fin.ext
  match a with
  | ⟨0, _⟩ => show win1_3.index t (0 : Fin 2) * 128 + 1 * k.val = k.val; omega
  | ⟨1, _⟩ => show win1_3.index t (1 : Fin 2) * 64 + 1 * o.val = o.val; omega

/-- The layer bias's block is the whole row at every point. -/
theorem bias_block_apply (c : Dev nD) (t : Fin cfg1.N) (k : Fin 1) (o : Fin 64) :
    (iblk1 V c 4 t : Vec Ideal S1x64 .f32) (ix2 k o) = (V c main_v44 : FVec Ideal S1x64 .f32) (ix2 k o) := by
  obtain ⟨-, -, -, -, ⟨e0, e1⟩, -⟩ := block_index t
  unfold iblk1
  rw [View.read_apply]
  show V c main_v44 _ = V c main_v44 _
  refine congrArg (V c main_v44) ?_
  funext a
  apply Fin.ext
  match a with
  | ⟨0, _⟩ => show win1_4.index t (0 : Fin 2) * 1 + 1 * k.val = k.val; omega
  | ⟨1, _⟩ => show win1_4.index t (1 : Fin 2) * 64 + 1 * o.val = o.val; omega

/-- The classifier weights' block is the whole column at every point. -/
theorem wc_block_apply (c : Dev nD) (t : Fin cfg1.N) (k : Fin 64) (o : Fin 1) :
    (iblk1 V c 5 t : Vec Ideal S64x1 .f32) (ix2 k o) = (V c main_v43 : FVec Ideal S64x1 .f32) (ix2 k o) := by
  obtain ⟨-, -, -, -, -, ⟨e0, e1⟩, -⟩ := block_index t
  unfold iblk1
  rw [View.read_apply]
  show V c main_v43 _ = V c main_v43 _
  refine congrArg (V c main_v43) ?_
  funext a
  apply Fin.ext
  match a with
  | ⟨0, _⟩ => show win1_5.index t (0 : Fin 2) * 64 + 1 * k.val = k.val; omega
  | ⟨1, _⟩ => show win1_5.index t (1 : Fin 2) * 1 + 1 * o.val = o.val; omega

/-- The class bias's block is the whole 1×1 array at every point. -/
theorem bc_block_apply (c : Dev nD) (t : Fin cfg1.N) (k : Fin 1) (o : Fin 1) :
    (iblk1 V c 6 t : Vec Ideal S1x1 .f32) (ix2 k o) = (V c main_v45 : FVec Ideal S1x1 .f32) (ix2 k o) := by
  obtain ⟨-, -, -, -, -, -, ⟨e0, e1⟩, -⟩ := block_index t
  unfold iblk1
  rw [View.read_apply]
  show V c main_v45 _ = V c main_v45 _
  refine congrArg (V c main_v45) ?_
  funext a
  apply Fin.ext
  match a with
  | ⟨0, _⟩ => show win1_6.index t (0 : Fin 2) * 1 + 1 * k.val = k.val; omega
  | ⟨1, _⟩ => show win1_6.index t (1 : Fin 2) * 1 + 1 * o.val = o.val; omega

/-! ## The value at a node depends on that node's rows only -/

/-- The layer-then-classifier value at node `p` of one pair of feature arrays equals the value at node `n` of another
    pair when the two nodes' feature rows agree and the weights and biases agree entry by entry. -/
theorem cls_sage_congr (A X : FVec Ideal ⟨2, ![5000, 128]⟩ .f32) (A' X' : FVec Ideal ⟨2, ![100000, 128]⟩ .f32)
    (Wl Wr Wl' Wr' : FVec Ideal ⟨2, ![128, 64]⟩ .f32) (B B' : FVec Ideal ⟨2, ![1, 64]⟩ .f32)
    (Wc Wc' : FVec Ideal ⟨2, ![64, 1]⟩ .f32) (Bc Bc' : FVec Ideal ⟨2, ![1, 1]⟩ .f32)
    (p : Fin 5000) (n : Fin 100000) (q : Fin 1)
    (hA : ∀ k : Fin 128, A (ix2 p k) = A' (ix2 n k)) (hX : ∀ k : Fin 128, X (ix2 p k) = X' (ix2 n k))
    (hWl : ∀ (k : Fin 128) (o : Fin 64), Wl (ix2 k o) = Wl' (ix2 k o))
    (hWr : ∀ (k : Fin 128) (o : Fin 64), Wr (ix2 k o) = Wr' (ix2 k o))
    (hB : ∀ (z : Fin 1) (o : Fin 64), B (ix2 z o) = B' (ix2 z o))
    (hWc : ∀ (o : Fin 64) (q : Fin 1), Wc (ix2 o q) = Wc' (ix2 o q))
    (hBc : ∀ (z : Fin 1) (q : Fin 1), Bc (ix2 z q) = Bc' (ix2 z q)) :
    Cert.Spec.clsTAt (Cert.Spec.sageT 5000 128 64 A X Wl Wr B) Wc Bc p q
      = Cert.Spec.clsTAt (Cert.Spec.sageT 100000 128 64 A' X' Wl' Wr' B') Wc' Bc' n q := by
  unfold Cert.Spec.clsTAt
  simp only [Cert.Spec.sageT_apply]
  unfold Cert.Spec.sageTAt
  simp only [hA, hX, hWl, hWr, hB, hWc, hBc]

/-! ## What a point writes back -/

/-- The score array as one function of the arrays the region is entered with. -/
abbrev scores (c : Dev nD) : FVec Ideal ⟨2, ![100000, 1]⟩ .f32 :=
  Cert.Spec.clsT 100000 64 1 (Cert.Spec.sageT 100000 128 64 (V c main_v40) (V c main_v28) (V c main_v41) (V c main_v42) (V c main_v44))
    (V c main_v43) (V c main_v45)

/-- Row `p` of the score block at point `t` is row `5000·t + p` of the score array. -/
theorem score_block_read (G : FVec Ideal S100000x1 .f32) (t : Fin cfg1.N) (p : Fin 5000) (q : Fin 1) (n : Fin 100000)
    (hn : n.val = 5000 * t.val + p.val) :
    ((cfg1.win 7).blk t).view.read (Elt Ideal) G (ix2 p q) = G (ix2 n q) := by
  obtain ⟨-, -, -, -, -, -, -, e0, e1⟩ := block_index t
  rw [View.read_apply]
  show G _ = G _
  refine congrArg G ?_
  funext a
  apply Fin.ext
  match a with
  | ⟨0, _⟩ => show win1_7.index t (0 : Fin 2) * 5000 + 1 * p.val = n.val; omega
  | ⟨1, _⟩ => show win1_7.index t (1 : Fin 2) * 1 + 1 * q.val = q.val; omega

/-- What point `t` writes back is block `t` of `scores`. -/
theorem flushed_eq (c : Dev nD) (t : Fin cfg1.N) :
    (dat1 (F := Ideal) V c).flushed 7 t = ((cfg1.win 7).blk t).view.read (Elt Ideal) (scores V c) := by
  show (cfg1.win 7).cut (grid1.coords t) ((dat1 V c).after 7 t) = _
  rw [after1_7]
  unfold out1_7
  rw [View.canon_unit_zero origin]
  simp only [View.ld_unit_zero (S := S5000x128) origin, View.ld_unit_zero (S := S128x64) origin,
    View.ld_unit_zero (S := S1x64) origin, View.ld_unit_zero (S := S64x1) origin, View.ld_unit_zero (S := S1x1) origin]
  funext y
  obtain ⟨p, q, rfl⟩ : ∃ (p : Fin 5000) (q : Fin 1), y = ix2 p q := ⟨y 0, y 1, eq_ix2 y⟩
  have ht : t.val < 20 := t.isLt.trans_eq N_1
  have hp : p.val < 5000 := p.isLt
  obtain ⟨n, hn⟩ : ∃ n : Fin 100000, n.val = 5000 * t.val + p.val := ⟨⟨5000 * t.val + p.val, by omega⟩, rfl⟩
  refine (pay_apply (iblk1 V c 0 t) (iblk1 V c 1 t) (iblk1 V c 2 t) (iblk1 V c 3 t) (iblk1 V c 4 t) (iblk1 V c 5 t) (iblk1 V c 6 t) p q).trans ?_
  refine Eq.trans ?_ (score_block_read (scores V c) t p q n hn).symm
  exact cls_sage_congr (iblk1 V c 0 t) (iblk1 V c 1 t) (V c main_v40) (V c main_v28) (iblk1 V c 2 t) (iblk1 V c 3 t) (V c main_v41) (V c main_v42)
    (iblk1 V c 4 t) (V c main_v44) (iblk1 V c 5 t) (V c main_v43) (iblk1 V c 6 t) (V c main_v45) p n q
    (fun k => agg_block_apply V c t p k n hn) (fun k => own_block_apply V c t p k n hn)
    (fun k o => wl_block_apply V c t k o) (fun k o => wr_block_apply V c t k o) (fun z o => bias_block_apply V c t z o)
    (fun o q => wc_block_apply V c t o q) (fun z q => bc_block_apply V c t z q)

/-! ## The blocks tile the array -/

/-- An index of the score array is in point `t`'s block iff each coordinate is in the block's range on its axis. -/
theorem mem_block (t : Fin cfg1.N) (i : S100000x1.Idx) :
    i ∈ ((cfg1.win 7).blk t).view.set ↔ ∀ a : Fin 2, win1_7.index t a * S5000x1.size a ≤ (i a).val ∧ (i a).val < win1_7.index t a * S5000x1.size a + S5000x1.size a := by
  show i ∈ ((View.whole main_v46).slice (win1_7.rect t)).set ↔ _
  rw [View.set_slice_whole, Rect.mem_set_unit]
  exact Iff.rfl

/-- Row `r` of the score array lies in the block written at point `r / 5000`, and every point writes back. -/
theorem covered (i : S100000x1.Idx) :
    ∃ t : Fin cfg1.N, (cfg1.win 7).flush t = true ∧ i ∈ ((cfg1.win 7).blk t).view.set := by
  have hi0 : (i 0).val < 100000 := (i 0).isLt
  have hi1 : (i 1).val < 1 := (i 1).isLt
  obtain ⟨t, ht⟩ : ∃ t : Fin cfg1.N, t.val = (i 0).val / 5000 :=
    ⟨⟨(i 0).val / 5000, by rw [show cfg1.N = 20 from N_1]; omega⟩, rfl⟩
  obtain ⟨-, -, -, -, -, -, -, e0, e1⟩ := block_index t
  refine ⟨t, flush1_7 t, ?_⟩
  rw [mem_block]
  intro a
  match a with
  | ⟨0, _⟩ => show win1_7.index t (0 : Fin 2) * 5000 ≤ (i 0).val ∧ (i 0).val < win1_7.index t (0 : Fin 2) * 5000 + 5000; omega
  | ⟨1, _⟩ => show win1_7.index t (1 : Fin 2) * 1 ≤ (i 1).val ∧ (i 1).val < win1_7.index t (1 : Fin 2) * 1 + 1; omega

/-! ## The array after the last point -/

/-- After all 20 points the score array holds, at every node, the classifier of the rectified layer of the arrays the
    region was entered with. -/
theorem final (V : (c : Dev nD) → (b : Ref sig .tc) → Buf (Elt Ideal) ((c : Thread nD τ).loc b)) (c : Dev nD) :
    (dat1 (F := Ideal) V c).arrAt 7 cfg1.N
      = Cert.Spec.clsT 100000 64 1 (Cert.Spec.sageT 100000 128 64 (V c main_v40) (V c main_v28) (V c main_v41) (V c main_v42) (V c main_v44))
          (V c main_v43) (V c main_v45) :=
  (dat1 V c).arrAt_eq_of_cover 7 (scores V c) (fun t _ => flushed_eq V c t) covered

end Cert.KernelIdeal.Region1

end
-- ==== Proof.RefAgg.lean ====
/-
  Mean aggregation over incoming edges, as the reference program spells it: the rows of `y` gathered at the edges' source nodes,
  summed into their destination nodes, and each node's sum divided by its in-degree (at least one). The edge list `e` enters only
  through this function; the proofs never open the gather or the scatter.
-/
import proofs.«131550_j7310034337833_1_alg».proof.Proof.Gen.ReferenceIdeal.Read

noncomputable section

namespace Cert.ReferenceIdeal.Hand

open Idealize.ShloMosaic Cert.ReferenceIdeal Cert.ReferenceIdeal.Gen Cert.ReferenceIdeal.Read

/-- `agg y e` [n, k] = (Σ over edges s → n of y[s, k]) / max(deg n, 1). -/
def agg (y : FVec Ideal S100000x128 .f32) (e : IVec S2x1600000 32) : FVec Ideal S100000x128 .f32 :=
  Host.divf (Host.scatterAdd scatter_S100000x128_S1600000x1_S1600000x128_1_0_0_1 (val_main_v11 (F := Ideal)) (val_main_v12 (F := Ideal) e)
    (Host.gather gather_S100000x128_S1600000x1_S1600000x128_1_0_n_n_0_1_1128 y (val_main_v9 (F := Ideal) e))) (val_main_v21 (F := Ideal) e)

end Cert.ReferenceIdeal.Hand

end
-- ==== Proof.AggLaw.lean ====
/-
  The one law that joins the two programs: the kernel multiplies a node's summed neighbour features by the reciprocal
  1 / max(deg, 1), the reference divides them by max(deg, 1). A divisor that is at least one is not zero, there the quotient is
  the product with the inverse, and one times the inverse is the inverse — for every extended real, the infinities included,
  so no finiteness of the features or of the degree is needed.
-/
import Idealize.ShloMosaic.PureOps.Ideal
import Idealize.ShloMosaic.Lib.IdealHost

noncomputable section

namespace Cert.Spec

open Idealize.ShloMosaic

/-- s · (1 / max(d, 1)) = s / max(d, 1) on the extended reals. -/
theorem mul_one_div_max (s d : EReal) : s * Ideal.div 1 (max d 1) = Ideal.div s (max d 1) := by
  have h0 : (0 : EReal) < 1 := by exact_mod_cast (zero_lt_one : (0 : ℝ) < 1)
  have h : max d 1 ≠ 0 := ne_of_gt (lt_of_lt_of_le h0 (le_max_right d 1))
  unfold Ideal.div
  rw [if_neg h, if_neg h, one_mul]

/-- The same with the float word of 1.0 where the programs print it. -/
theorem mul_one_div_max_word (s d : EReal) :
    s * Ideal.div (Ideal.ofBits .f32 0x3F800000#32) (max d (Ideal.ofBits .f32 0x3F800000#32))
      = Ideal.div s (max d (Ideal.ofBits .f32 0x3F800000#32)) := by
  rw [Ideal.ofBits_one_f32]
  exact mul_one_div_max s d

end Cert.Spec

end
-- ==== Proof.AggEq.lean ====
/-
  The two programs' mean aggregations are one function. Both gather the rows at the edges' sources and sum them into the
  destinations with the same operations on the same edge list; the kernel's program then multiplies node n's sums by
  1 / max(deg n, 1) and the reference divides them by max(deg n, 1), the degree column broadcast along the features. Read at an
  index (n, k) both broadcasts give node n's entry, and the law `s · (1 / max(d, 1)) = s / max(d, 1)` joins the two sides.
-/
import proofs.«131550_j7310034337833_1_alg».proof.Proof.HostChain
import proofs.«131550_j7310034337833_1_alg».proof.Proof.RefAgg
import proofs.«131550_j7310034337833_1_alg».proof.Proof.AggLaw
import Idealize.ShloMosaic.Lib.Pipeline.Value
import Idealize.ShloMosaic.Lib.ValueIdx

set_option maxHeartbeats 400000

noncomputable section

namespace Cert.Proof.Agg

open Idealize.ShloMosaic Idealize.ShloMosaic.ValueIdx
open Cert.KernelIdeal.Hand

/-! ## The reference's host terms are the kernel program's, operation for operation -/

theorem src_eq (e : IVec Cert.KernelIdeal.S2x1600000 32) : Cert.ReferenceIdeal.Read.val_main_v9 (F := Ideal) e = srcCol e := rfl
theorem dst_eq (e : IVec Cert.KernelIdeal.S2x1600000 32) : Cert.ReferenceIdeal.Read.val_main_v12 (F := Ideal) e = dstCol e := rfl
theorem dst'_eq (e : IVec Cert.KernelIdeal.S2x1600000 32) : Cert.ReferenceIdeal.Read.val_main_v16 (F := Ideal) e = dstCol e := rfl

/-- The summed neighbour features. -/
theorem seg_eq (y : FVec Ideal Cert.KernelIdeal.S100000x128 .f32) (e : IVec Cert.KernelIdeal.S2x1600000 32) :
    Host.scatterAdd Cert.ReferenceIdeal.scatter_S100000x128_S1600000x1_S1600000x128_1_0_0_1 (Cert.ReferenceIdeal.Read.val_main_v11 (F := Ideal))
        (Cert.ReferenceIdeal.Read.val_main_v12 (F := Ideal) e)
        (Host.gather Cert.ReferenceIdeal.gather_S100000x128_S1600000x1_S1600000x128_1_0_n_n_0_1_1128 y (Cert.ReferenceIdeal.Read.val_main_v9 (F := Ideal) e))
      = segSum y e := by
  rw [src_eq, dst_eq]
  rfl

/-- The in-degree, at least one. -/
theorem deg_eq (e : IVec Cert.KernelIdeal.S2x1600000 32) : Cert.ReferenceIdeal.Read.val_main_v19 (F := Ideal) e = degMax e := by
  unfold Cert.ReferenceIdeal.Read.val_main_v19 Cert.ReferenceIdeal.Read.val_main_v17
  rw [dst'_eq]
  rfl

/-! ## The degree column read at an index -/

/-- A per-node vector broadcast to a column and then along the 128 features reads, at (n, k), node n's entry. -/
theorem bcast_col {α : Type}
    (h1 : (⟨1, ![100000]⟩ : Shape).BroadcastsInDim ⟨2, ![100000, 1]⟩ (![0] : Fin 1 → Fin 2))
    (h2 : (⟨2, ![100000, 1]⟩ : Shape).BroadcastsInDim ⟨2, ![100000, 128]⟩ (![0, 1] : Fin 2 → Fin 2))
    (v : (⟨1, ![100000]⟩ : Shape).Idx → α) (n : Fin 100000) (k : Fin 128) :
    broadcastInDim ⟨2, ![100000, 128]⟩ ![0, 1] h2 (broadcastInDim ⟨2, ![100000, 1]⟩ ![0] h1 v) (ix2 n k) = v (ix1 n) := by
  rw [broadcastInDim_apply _ h2 _ (ix2 n k) (ix2 n (0 : Fin 1)) (fun a => match a with
    | ⟨0, _⟩ => by show n.val = if (100000 : Nat) = 1 then 0 else n.val; rw [if_neg (by decide)]
    | ⟨1, _⟩ => by show 0 = if (1 : Nat) = 1 then 0 else k.val; rw [if_pos rfl])]
  exact broadcastInDim_apply _ h1 v _ _ (fun a => match a with
    | ⟨0, _⟩ => by show n.val = if (100000 : Nat) = 1 then 0 else n.val; rw [if_neg (by decide)])

/-- The splat of the float one reads the float one at every node. -/
theorem one_apply (n : Fin 100000) :
    broadcastInDim Cert.KernelIdeal.S100000 ![] Cert.KernelIdeal.Facts₀.bcast_S_S100000
      (constant (F := Ideal) Cert.KernelIdeal.S_ .f32 0x3F800000#32) (ix1 n) = Ideal.ofBits .f32 0x3F800000#32 := rfl

/-- The clamped degree at node n. -/
theorem degMax_apply (e : IVec Cert.KernelIdeal.S2x1600000 32) (n : Fin 100000) :
    degMax e (ix1 n) = max (degSum e (ix1 n)) (Ideal.ofBits .f32 0x3F800000#32) := by
  unfold degMax
  exact (maximumf_apply _ _ _).trans (congrArg (max _) (one_apply n))

/-- The kernel program's reciprocal degree, broadcast along the features, at (n, k). -/
theorem inv_apply (e : IVec Cert.KernelIdeal.S2x1600000 32) (n : Fin 100000) (k : Fin 128) :
    broadcastInDim Cert.KernelIdeal.S100000x128 ![0, 1] Cert.KernelIdeal.Facts₀.bcast_S100000x1_S100000x128_0_1 (invDeg e) (ix2 n k)
      = Ideal.div (Ideal.ofBits .f32 0x3F800000#32) (max (degSum e (ix1 n)) (Ideal.ofBits .f32 0x3F800000#32)) := by
  unfold invDeg
  refine (bcast_col _ _ _ n k).trans ?_
  refine (hostDivf_apply _ _ _).trans ?_
  exact congrArg₂ Ideal.div (one_apply n) (degMax_apply e n)

/-- The reference's degree, broadcast along the features, at (n, k). -/
theorem deg_apply (e : IVec Cert.KernelIdeal.S2x1600000 32) (n : Fin 100000) (k : Fin 128) :
    Cert.ReferenceIdeal.Read.val_main_v21 (F := Ideal) e (ix2 n k) = max (degSum e (ix1 n)) (Ideal.ofBits .f32 0x3F800000#32) := by
  unfold Cert.ReferenceIdeal.Read.val_main_v21 Cert.ReferenceIdeal.Read.val_main_v20
  rw [deg_eq]
  exact (bcast_col _ _ _ n k).trans (degMax_apply e n)

/-! ## The aggregation -/

/-- The kernel program's aggregation is the reference's. -/
theorem aggK_eq (y : FVec Ideal Cert.KernelIdeal.S100000x128 .f32) (e : IVec Cert.KernelIdeal.S2x1600000 32) :
    Cert.KernelIdeal.Hand.aggK y e = Cert.ReferenceIdeal.Hand.agg y e := by
  funext i
  obtain ⟨n, k, rfl⟩ : ∃ (n : Fin 100000) (k : Fin 128), i = ix2 n k := ⟨i 0, i 1, eq_ix2 i⟩
  unfold aggK Cert.ReferenceIdeal.Hand.agg
  rw [seg_eq]
  refine (mulf_apply _ _ _).trans ?_
  refine Eq.trans ?_ (hostDivf_apply _ _ _).symm
  rw [inv_apply, deg_apply]
  exact Cert.Spec.mul_one_div_max_word _ _

end Cert.Proof.Agg

end
-- ==== Proof.KernelValue.lean ====
/-
  The idealized kernel program's result as one function of its arguments. The first region leaves, in the hidden-feature array,
  the first layer of the aggregated and the raw node features; the host operations between the regions aggregate that array over
  the same edges; the second region leaves the second layer followed by the classifier. The regions read the weight matrices
  transposed by the host and the biases reshaped to one-row matrices: read at an index, a transposed matrix is the matrix at the
  swapped index and a reshaped vector is the vector, so each region's function is the layer over the weights as given.
-/
import proofs.«131550_j7310034337833_1_alg».proof.Proof.KernelRun
import proofs.«131550_j7310034337833_1_alg».proof.Proof.HostChain
import proofs.«131550_j7310034337833_1_alg».proof.Proof.Region0
import proofs.«131550_j7310034337833_1_alg».proof.Proof.Region1
import proofs.«131550_j7310034337833_1_alg».proof.Proof.AggEq
import proofs.«131550_j7310034337833_1_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx

/-! ## Transposed and reshaped operands read at an index -/

theorem transpose_sq (W : S128x128.Idx → EReal) (k o : Fin 128) :
    transpose S128x128 [1, 0] W transposes_S128x128_S128x128_1_0 (ix2 k o) = W (ix2 o k) :=
  transpose_apply [1, 0] W transposes_S128x128_S128x128_1_0 (ix2 k o) (ix2 o k) (fun b => match b with
    | ⟨0, _⟩ => rfl
    | ⟨1, _⟩ => rfl)

theorem transpose_half (W : S64x128.Idx → EReal) (k : Fin 128) (o : Fin 64) :
    transpose S128x64 [1, 0] W transposes_S64x128_S128x64_1_0 (ix2 k o) = W (ix2 o k) :=
  transpose_apply [1, 0] W transposes_S64x128_S128x64_1_0 (ix2 k o) (ix2 o k) (fun b => match b with
    | ⟨0, _⟩ => rfl
    | ⟨1, _⟩ => rfl)

theorem transpose_row (W : S1x64.Idx → EReal) (k : Fin 64) (o : Fin 1) :
    transpose S64x1 [1, 0] W transposes_S1x64_S64x1_1_0 (ix2 k o) = W (ix2 o k) :=
  transpose_apply [1, 0] W transposes_S1x64_S64x1_1_0 (ix2 k o) (ix2 o k) (fun b => match b with
    | ⟨0, _⟩ => rfl
    | ⟨1, _⟩ => rfl)

theorem reshape_row128 (b : S128.Idx → EReal) (o : Fin 128) :
    shapeCast S1x128 b shapeCasts_S128_S1x128 (ix2 (0 : Fin 1) o) = b (ix1 o) :=
  shapeCast_apply b shapeCasts_S128_S1x128 (ix2 (0 : Fin 1) o) (ix1 o)
    (by rewrite [Shape.rowMajor_val_one, Shape.rowMajor_val_two]; show o.val = 0 * 128 + o.val; omega)

theorem reshape_row64 (b : S64.Idx → EReal) (o : Fin 64) :
    shapeCast S1x64 b shapeCasts_S64_S1x64 (ix2 (0 : Fin 1) o) = b (ix1 o) :=
  shapeCast_apply b shapeCasts_S64_S1x64 (ix2 (0 : Fin 1) o) (ix1 o)
    (by rewrite [Shape.rowMajor_val_one, Shape.rowMajor_val_two]; show o.val = 0 * 64 + o.val; omega)

theorem reshape_row1 (b : S1.Idx → EReal) (o : Fin 1) :
    shapeCast S1x1 b shapeCasts_S1_S1x1 (ix2 (0 : Fin 1) o) = b (ix1 o) :=
  shapeCast_apply b shapeCasts_S1_S1x1 (ix2 (0 : Fin 1) o) (ix1 o)
    (by rewrite [Shape.rowMajor_val_one, Shape.rowMajor_val_two]; show o.val = 0 * 1 + o.val; omega)

variable (m : (ℓ : Loc nD τ sig) → Buf (Elt Ideal) ℓ) (ρ : Dev nD → PrngReg)

/-! ## The two regions' arrays -/

/-- The hidden features: the first layer of the aggregated and the raw node features. -/
def layer1 (c : Dev nD) : S100000x128.Idx → EReal :=
  Cert.Spec.sage 100000 128 128
    (Cert.ReferenceIdeal.Hand.agg (m ((c : Thread nD τ).loc main_arg0)) (m ((c : Thread nD τ).loc main_arg1)))
    (m ((c : Thread nD τ).loc main_arg0)) (m ((c : Thread nD τ).loc main_arg2)) (m ((c : Thread nD τ).loc main_arg3))
    (m ((c : Thread nD τ).loc main_arg4))

/-- The result: the second layer of the aggregated and the raw hidden features, then the classifier. -/
def logits (c : Dev nD) : S100000x1.Idx → EReal :=
  Cert.Spec.cls 100000 64 1
    (Cert.Spec.sage 100000 128 64 (Cert.ReferenceIdeal.Hand.agg (layer1 m c) (m ((c : Thread nD τ).loc main_arg1))) (layer1 m c)
      (m ((c : Thread nD τ).loc main_arg5)) (m ((c : Thread nD τ).loc main_arg6)) (m ((c : Thread nD τ).loc main_arg7)))
    (m ((c : Thread nD τ).loc main_arg8)) (m ((c : Thread nD τ).loc main_arg9))

/-- After the first region the hidden-feature array holds the first layer. -/
theorem hidden_eq (c : Dev nD) : hidden m ρ c = layer1 m c := by
  refine ((W2_arr m ρ c 5).trans (Cert.KernelIdeal.Region0.final (V1 m ρ) c)).trans ?_
  rw [V1_v24, V1_arg0, V1_v25, V1_v26, V1_v27, Cert.Proof.Agg.aggK_eq]
  exact Cert.Spec.sageT_eq _ _ _ _ _ _ _ _ (fun k o => transpose_sq _ k o) (fun k o => transpose_sq _ k o) (fun o => reshape_row128 _ o)

/-- After the second region the result array holds the logits. -/
theorem result_eq (c : Dev nD) : (W4 m ρ c (Proc.devRef .tc main_v46) : S100000x1.Idx → EReal) = logits m c := by
  refine ((W4_arr m ρ c 7).trans (Cert.KernelIdeal.Region1.final (V3 m ρ) c)).trans ?_
  rw [V3_v40, V3_v28, V3_v41, V3_v42, V3_v44, V3_v43, V3_v45, hidden_eq, Cert.Proof.Agg.aggK_eq]
  rw [Cert.Spec.sageT_eq _ _ _ _ _ _ _ _ (fun k o => transpose_half _ k o) (fun k o => transpose_half _ k o) (fun o => reshape_row64 _ o)]
  exact Cert.Spec.clsT_eq _ _ _ _ _ (fun k o => transpose_row _ k o) (fun o => reshape_row1 _ o)

/-- The run, read: every weakly fair execution terminates with the result array at the logits of the launch arguments and the
    arguments unchanged. -/
theorem run_value : θ_run defs (onTc (τ := τ) (main (F := Ideal))) ⟨m, fun _ => 0, ρ⟩ (fun r => ∀ c : Dev nD,
      r.2.mem ((c.tc : Thread nD τ).loc main_v46) = logits m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(h c).1.trans (result_eq m ρ c), (h c).2⟩) (run_result (F := Ideal) m ρ)

end Cert.KernelIdeal.Hand

end
-- ==== Proof.RefValue.lean ====
/-
  The reference program's result, read index by index over the extended reals, is the specification function.

  The program is two graph layers and a linear classifier. Each layer is
    out[n, o] = max(Σ_k A[n, k]·Wl[o, k] + Σ_k X[n, k]·Wr[o, k] + b[o], 0)
  with X the nodes' features and A their mean over incoming edges (`agg`); the classifier is out[n, c] = Σ_k H[n, k]·Wc[c, k] + bc[c].
  The edge list enters only through `agg`, which stays closed: the first aggregation is `agg` of the input features by
  definition, and the second is `agg` of the first layer's result because the program recomputes the same source indices,
  destination indices, zero array and degree array from the edge list, operation for operation.
  At an entry [n, o] each contraction is a sum over k of the left operand at [n, k] times a transposed weight at [k, o], which
  is the weight at [o, k]; the bias is broadcast along the nodes, so it is read at [o]; the rectifier compares with the
  word of +0.0. These are exactly the terms of the specification's sums, so the two sides agree term by term with no
  arithmetic law needed.
-/
import proofs.«131550_j7310034337833_1_alg».proof.Proof.RefAgg
import proofs.«131550_j7310034337833_1_alg».proof.Proof.Spec

noncomputable section

namespace Cert.ReferenceIdeal.Hand

open Idealize.ShloMosaic Cert.ReferenceIdeal Cert.ReferenceIdeal.Gen Cert.ReferenceIdeal.Read

/-- The first aggregation stage is `agg` of the node features. -/
theorem agg1_eq (x0 : FVec Ideal S100000x128 .f32) (x1 : IVec S2x1600000 32) :
    val_main_v22 (F := Ideal) x0 x1 = agg x0 x1 := rfl

/-! ### The second aggregation repeats the first's index chain operation for operation -/

theorem src2_eq (e : IVec S2x1600000 32) : val_main_v37 (F := Ideal) e = val_main_v9 (F := Ideal) e := rfl
theorem dst2_eq (e : IVec S2x1600000 32) : val_main_v40 (F := Ideal) e = val_main_v12 (F := Ideal) e := rfl
theorem zero2_eq : val_main_v39 (F := Ideal) = val_main_v11 (F := Ideal) := rfl
theorem deg2_eq (e : IVec S2x1600000 32) : val_main_v49 (F := Ideal) e = val_main_v21 (F := Ideal) e := rfl

/-- The second aggregation stage is `agg` of the first layer's result. -/
theorem agg2_eq (x0 : FVec Ideal S100000x128 .f32) (x1 : IVec S2x1600000 32) (x2 x3 : FVec Ideal S128x128 .f32) (x4 : FVec Ideal S128 .f32) :
    val_main_v50 (F := Ideal) x0 x1 x2 x3 x4 = agg (val_main_v31 (F := Ideal) x0 x1 x2 x3 x4) x1 := by
  unfold val_main_v50 val_main_v41 val_main_v38 agg
  rw [src2_eq, dst2_eq, zero2_eq, deg2_eq]

/-! ### First layer: the index maps of the two contractions, the two transposes and the bias broadcast, by coordinates -/

theorem lidx24 (n : Fin 100000) (o k : Fin 128) : lidx_main_v24 (ValueIdx.ix2 n o) k = ValueIdx.ix2 n k :=
  funext fun a => Fin.ext (by match a with | ⟨0, _⟩ => rfl | ⟨1, _⟩ => rfl)
theorem ridx24 (n : Fin 100000) (o k : Fin 128) : idx_main_v23 (ridx_main_v24 (ValueIdx.ix2 n o) k) = ValueIdx.ix2 o k :=
  funext fun a => Fin.ext (by match a with | ⟨0, _⟩ => rfl | ⟨1, _⟩ => rfl)
theorem lidx26 (n : Fin 100000) (o k : Fin 128) : lidx_main_v26 (ValueIdx.ix2 n o) k = ValueIdx.ix2 n k :=
  funext fun a => Fin.ext (by match a with | ⟨0, _⟩ => rfl | ⟨1, _⟩ => rfl)
theorem ridx26 (n : Fin 100000) (o k : Fin 128) : idx_main_v25 (ridx_main_v26 (ValueIdx.ix2 n o) k) = ValueIdx.ix2 o k :=
  funext fun a => Fin.ext (by match a with | ⟨0, _⟩ => rfl | ⟨1, _⟩ => rfl)
theorem bidx29 (n : Fin 100000) (o : Fin 128) : idx_main_v28 (idx_main_v29 (ValueIdx.ix2 n o)) = ValueIdx.ix1 o :=
  funext fun a => Fin.ext (by match a with | ⟨0, _⟩ => rfl)

/-- The first layer's result is the specification's layer on `agg x0 x1` and `x0`. -/
theorem layer1_eq (x0 : FVec Ideal S100000x128 .f32) (x1 : IVec S2x1600000 32) (x2 x3 : FVec Ideal S128x128 .f32) (x4 : FVec Ideal S128 .f32) :
    val_main_v31 (F := Ideal) x0 x1 x2 x3 x4 = Cert.Spec.sage 100000 128 128 (agg x0 x1) x0 x2 x3 x4 := by
  funext i
  obtain ⟨n, o, rfl⟩ : ∃ (n : Fin 100000) (o : Fin 128), i = ValueIdx.ix2 n o := ⟨i 0, i 1, ValueIdx.eq_ix2 i⟩
  rw [val_main_v31_apply, val_main_v30_apply, val_main_v27_apply, val_main_v24_apply, val_main_v26_apply,
    val_main_v29_apply, val_main_v28_apply, val_main_call0_v0_apply, val_main_call0_cst_apply, agg1_eq,
    Cert.Spec.sage_apply]
  unfold Cert.Spec.sageAt
  simp only [val_main_v23_apply, val_main_v25_apply, lidx24, ridx24, lidx26, ridx26, bidx29,
    Ideal.maximumf_def, Ideal.addf_def, Ideal.ofBits_def]

/-! ### Second layer and classifier: the same index maps at their sizes -/

theorem lidx52 (n : Fin 100000) (o : Fin 64) (k : Fin 128) : lidx_main_v52 (ValueIdx.ix2 n o) k = ValueIdx.ix2 n k :=
  funext fun a => Fin.ext (by match a with | ⟨0, _⟩ => rfl | ⟨1, _⟩ => rfl)
theorem ridx52 (n : Fin 100000) (o : Fin 64) (k : Fin 128) : idx_main_v51 (ridx_main_v52 (ValueIdx.ix2 n o) k) = ValueIdx.ix2 o k :=
  funext fun a => Fin.ext (by match a with | ⟨0, _⟩ => rfl | ⟨1, _⟩ => rfl)
theorem lidx54 (n : Fin 100000) (o : Fin 64) (k : Fin 128) : lidx_main_v54 (ValueIdx.ix2 n o) k = ValueIdx.ix2 n k :=
  funext fun a => Fin.ext (by match a with | ⟨0, _⟩ => rfl | ⟨1, _⟩ => rfl)
theorem ridx54 (n : Fin 100000) (o : Fin 64) (k : Fin 128) : idx_main_v53 (ridx_main_v54 (ValueIdx.ix2 n o) k) = ValueIdx.ix2 o k :=
  funext fun a => Fin.ext (by match a with | ⟨0, _⟩ => rfl | ⟨1, _⟩ => rfl)
theorem bidx57 (n : Fin 100000) (o : Fin 64) : idx_main_v56 (idx_main_v57 (ValueIdx.ix2 n o)) = ValueIdx.ix1 o :=
  funext fun a => Fin.ext (by match a with | ⟨0, _⟩ => rfl)
theorem lidx61 (n : Fin 100000) (c : Fin 1) (k : Fin 64) : lidx_main_v61 (ValueIdx.ix2 n c) k = ValueIdx.ix2 n k :=
  funext fun a => Fin.ext (by match a with | ⟨0, _⟩ => rfl | ⟨1, _⟩ => rfl)
theorem ridx61 (n : Fin 100000) (c : Fin 1) (k : Fin 64) : idx_main_v60 (ridx_main_v61 (ValueIdx.ix2 n c) k) = ValueIdx.ix2 c k :=
  funext fun a => Fin.ext (by match a with | ⟨0, _⟩ => rfl | ⟨1, _⟩ => rfl)
theorem bidx63 (n : Fin 100000) (c : Fin 1) : idx_main_v62 (idx_main_v63 (ValueIdx.ix2 n c)) = ValueIdx.ix1 c :=
  funext fun a => Fin.ext (by match a with | ⟨0, _⟩ => have h := c.isLt; show 0 = c.val; omega)

/-- The second layer's result is the specification's layer on `agg` of the first layer's result and that result. -/
theorem layer2_eq (x0 : FVec Ideal S100000x128 .f32) (x1 : IVec S2x1600000 32) (x2 x3 : FVec Ideal S128x128 .f32) (x4 : FVec Ideal S128 .f32)
    (x5 x6 : FVec Ideal S64x128 .f32) (x7 : FVec Ideal S64 .f32) :
    val_main_v59 (F := Ideal) x0 x1 x2 x3 x4 x5 x6 x7
      = Cert.Spec.sage 100000 128 64 (agg (val_main_v31 (F := Ideal) x0 x1 x2 x3 x4) x1) (val_main_v31 (F := Ideal) x0 x1 x2 x3 x4) x5 x6 x7 := by
  funext i
  obtain ⟨n, o, rfl⟩ : ∃ (n : Fin 100000) (o : Fin 64), i = ValueIdx.ix2 n o := ⟨i 0, i 1, ValueIdx.eq_ix2 i⟩
  rw [val_main_v59_apply, val_main_v58_apply, val_main_v55_apply, val_main_v52_apply, val_main_v54_apply,
    val_main_v57_apply, val_main_v56_apply, val_main_call1_v0_apply, val_main_call1_cst_apply, agg2_eq,
    Cert.Spec.sage_apply]
  unfold Cert.Spec.sageAt
  simp only [val_main_v51_apply, val_main_v53_apply, lidx52, ridx52, lidx54, ridx54, bidx57,
    Ideal.maximumf_def, Ideal.addf_def, Ideal.ofBits_def]

/-- The classifier stage is the specification's classifier on the second layer's result. -/
theorem cls_eq (x0 : FVec Ideal S100000x128 .f32) (x1 : IVec S2x1600000 32) (x2 x3 : FVec Ideal S128x128 .f32) (x4 : FVec Ideal S128 .f32)
    (x5 x6 : FVec Ideal S64x128 .f32) (x7 : FVec Ideal S64 .f32) (x8 : FVec Ideal S1x64 .f32) (x9 : FVec Ideal S1 .f32) :
    val_main_v64 (F := Ideal) x0 x1 x2 x3 x4 x5 x6 x7 x8 x9
      = Cert.Spec.cls 100000 64 1 (val_main_v59 (F := Ideal) x0 x1 x2 x3 x4 x5 x6 x7) x8 x9 := by
  funext i
  obtain ⟨n, c, rfl⟩ : ∃ (n : Fin 100000) (c : Fin 1), i = ValueIdx.ix2 n c := ⟨i 0, i 1, ValueIdx.eq_ix2 i⟩
  rw [val_main_v64_apply, val_main_v61_apply, val_main_v63_apply, val_main_v62_apply, Cert.Spec.cls_apply]
  unfold Cert.Spec.clsAt
  simp only [val_main_v60_apply, lidx61, ridx61, bidx63, Ideal.addf_def]

/-- The reference's result is the specification: two layers over `agg`, then the classifier. -/
theorem ref_eq (x0 : FVec Ideal S100000x128 .f32) (x1 : IVec S2x1600000 32) (x2 x3 : FVec Ideal S128x128 .f32) (x4 : FVec Ideal S128 .f32)
    (x5 x6 : FVec Ideal S64x128 .f32) (x7 : FVec Ideal S64 .f32) (x8 : FVec Ideal S1x64 .f32) (x9 : FVec Ideal S1 .f32) :
    val_main_v64 (F := Ideal) x0 x1 x2 x3 x4 x5 x6 x7 x8 x9
      = Cert.Spec.cls 100000 64 1
          (Cert.Spec.sage 100000 128 64 (agg (Cert.Spec.sage 100000 128 128 (agg x0 x1) x0 x2 x3 x4) x1)
            (Cert.Spec.sage 100000 128 128 (agg x0 x1) x0 x2 x3 x4) x5 x6 x7) x8 x9 := by
  rw [cls_eq, layer2_eq, layer1_eq]

end Cert.ReferenceIdeal.Hand

end
-- ==== Proof.lean ====
/-
  A two-layer GraphSAGE network with a linear classifier on 100000 nodes and 1600000 edges, as two kernel regions with host
  gathers and scatters between them, against the plain jnp reference; equal as extended reals.

  Both programs gather each edge's source row, sum the rows into the edges' destinations, and normalise node n's sums by
  max(deg n, 1): the reference divides, the kernel's program multiplies by the reciprocal 1 / max(deg n, 1) — the same extended
  real, since a divisor that is at least one is not zero (Proof/AggLaw.lean, Proof/AggEq.lean). A layer is
  relu(A·Wlᵀ + X·Wrᵀ + b) of the aggregated features A and the nodes' own features X; the kernels compute it block by block
  of 5000 rows from weights transposed on the host, with products into a zero accumulator where the reference has one
  `dot_general`: at the ideal instance both are the same sums (Proof/Region0.lean, Proof/Region1.lean for the two regions'
  arrays; Proof/RefValue.lean for the reference; Proof/Spec.lean for the sums themselves). The second region also applies the
  classifier H·Wcᵀ + bc. The gathers and scatters themselves are never opened: both programs apply the same ones to equal values.
  No finiteness of the inputs is used. The idealization rewrote nothing, so the kernel is its own idealization's source as printed.
-/
import proofs.«131550_j7310034337833_1_alg».proof.Defs
import proofs.«131550_j7310034337833_1_alg».proof.Proof.Gen.Kernel
import proofs.«131550_j7310034337833_1_alg».proof.Proof.Gen.Kernel.Skeleton
import proofs.«131550_j7310034337833_1_alg».proof.Proof.Gen.Kernel.Launch
import proofs.«131550_j7310034337833_1_alg».proof.Proof.Gen.Kernel.Points
import proofs.«131550_j7310034337833_1_alg».proof.Proof.Gen.Kernel.Frame
import proofs.«131550_j7310034337833_1_alg».proof.Proof.Gen.KernelIdeal
import proofs.«131550_j7310034337833_1_alg».proof.Proof.Gen.KernelIdeal.Skeleton
import proofs.«131550_j7310034337833_1_alg».proof.Proof.Gen.KernelIdeal.Launch
import proofs.«131550_j7310034337833_1_alg».proof.Proof.Gen.KernelIdeal.Points
import proofs.«131550_j7310034337833_1_alg».proof.Proof.Gen.KernelIdeal.Frame
import proofs.«131550_j7310034337833_1_alg».proof.Proof.Gen.ReferenceIdeal
import proofs.«131550_j7310034337833_1_alg».proof.Proof.Gen.Pre_finite_inputs
import proofs.«131550_j7310034337833_1_alg».proof.Proof.Gen.ReferenceIdeal.Run
import proofs.«131550_j7310034337833_1_alg».proof.Proof.Gen.ReferenceIdeal.Read
import proofs.«131550_j7310034337833_1_alg».proof.Proof.KernelValue
import proofs.«131550_j7310034337833_1_alg».proof.Proof.RefValue
import Idealize.ShloMosaic.Adequacy
import Idealize.ShloMosaic.Init

noncomputable section

namespace Cert.Proof

open Idealize.ShloMosaic Idealize.SL.Sem

/-- The kernel as printed runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the logits of the arguments: the kernel's program by its
    two regions' arrays and the aggregation law, the reference by its operations read at an index. -/
theorem algebraic : Cert.algebraic_KernelIdeal_ReferenceIdeal := by
  intro m ρ m' ρ' _ hagree
  refine ⟨fun c => Cert.KernelIdeal.Hand.logits m c, Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9⟩ := hagree c
  rw [Cert.ReferenceIdeal.Read.val_main_v64_eq, Cert.ReferenceIdeal.Hand.ref_eq, e0, e1, e2, e3, e4, e5, e6, e7, e8, e9]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
